-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x40 .f32) (main_arg5 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x128 : Shape := ⟨2, ![2000, 128]⟩
abbrev S850000x128 : Shape := ⟨2, ![850000, 128]⟩
abbrev S1x128 : Shape := ⟨2, ![1, 128]⟩
abbrev S50000x40 : Shape := ⟨2, ![50000, 40]⟩
abbrev S2000x40 : Shape := ⟨2, ![2000, 40]⟩
abbrev S850000x40 : Shape := ⟨2, ![850000, 40]⟩
abbrev S1x40 : Shape := ⟨2, ![1, 40]⟩
abbrev S2000 : Shape := ⟨1, ![2000]⟩
abbrev S2000x1 : Shape := ⟨2, ![2000, 1]⟩

abbrev nBuf : Space → Nat
  | .hbm => 84
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S50000x128, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x128, .f32⟩
  | .hbm, ⟨57, _⟩ => ⟨S850000x1, .f32⟩
  | .hbm, ⟨58, _⟩ => ⟨S850000x128, .f32⟩
  | .hbm, ⟨59, _⟩ => ⟨S850000x128, .f32⟩
  | .hbm, ⟨60, _⟩ => ⟨S_, .f32⟩
  | .hbm, ⟨61, _⟩ => ⟨S50000x128, .f32⟩
  | .hbm, ⟨62, _⟩ => ⟨S850000x1, .i32⟩
  | .hbm, ⟨63, _⟩ => ⟨S50000x128, .f32⟩
  | .hbm, ⟨64, _⟩ => ⟨S1x128, .f32⟩
  | .hbm, ⟨65, _⟩ => ⟨S50000x40, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x40, .f32⟩
  | .hbm, ⟨75, _⟩ => ⟨S850000x1, .f32⟩
  | .hbm, ⟨76, _⟩ => ⟨S850000x40, .f32⟩
  | .hbm, ⟨77, _⟩ => ⟨S850000x40, .f32⟩
  | .hbm, ⟨78, _⟩ => ⟨S_, .f32⟩
  | .hbm, ⟨79, _⟩ => ⟨S50000x40, .f32⟩
  | .hbm, ⟨80, _⟩ => ⟨S850000x1, .i32⟩
  | .hbm, ⟨81, _⟩ => ⟨S50000x40, .f32⟩
  | .hbm, ⟨82, _⟩ => ⟨S1x40, .f32⟩
  | .hbm, ⟨83, _⟩ => ⟨S50000x40, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S128x40, .f32⟩
  | .local _ .vmem, ⟨9, _⟩ => ⟨S2000x40, .f32⟩
  | .local _ .vmem, ⟨10, _⟩ => ⟨S2000x40, .f32⟩
  | .local _ .vmem, ⟨11, _⟩ => ⟨S2000x40, .f32⟩
  | .local _ .vmem, ⟨12, _⟩ => ⟨S2000x40, .f32⟩
  | .local _ .vmem, ⟨13, _⟩ => ⟨S1x40, .f32⟩
  | .local _ .vmem, ⟨14, _⟩ => ⟨S2000x40, .f32⟩
  | .local _ .vmem, ⟨15, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x40_S128x40_0_0 : ∀ a, (![0, 0] : Fin 2 → Nat) a + S128x40.size a ≤ S128x40.size a
  h_S128x40 : 0 < S128x40.numel
  inb_S2000x40_S2000x40_0_0 : ∀ a, (![0, 0] : Fin 2 → Nat) a + S2000x40.size a ≤ S2000x40.size a
  h_S2000x40 : 0 < S2000x40.numel
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  shapeCasts_S40_S1x40 : S40.ShapeCasts S1x40
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x40_S2000x40_1_0_0_1_n_n_wf : DotDims.WF S2000x128 S128x40 S2000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .f32 = 32 ∨ (Rect.block (s := S128x40) S128x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x40.size a ≤ S50000x40.size a
  hwx1_3 : ∀ i : grid1.Coords, EltTy.bits .f32 = 32 ∨ (Rect.block (s := S50000x40) S2000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x40.size a ≤ S50000x40.size a
  hwx2_0 : ∀ i : grid2.Coords, EltTy.bits .f32 = 32 ∨ (Rect.block (s := S50000x40) S2000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x40.size a ≤ S50000x40.size a
  hwx2_2 : ∀ i : grid2.Coords, EltTy.bits .f32 = 32 ∨ (Rect.block (s := S50000x40) S2000x40.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S2000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S2000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S2000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x40 : Shape := ⟨2, ![50000, 40]⟩
abbrev S850000x40 : Shape := ⟨2, ![850000, 40]⟩
abbrev S1x40 : Shape := ⟨2, ![1, 40]⟩
abbrev S50000x1 : Shape := ⟨2, ![50000, 1]⟩

abbrev nBuf : Space → Nat
  | .hbm => 105
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S50000x128, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x128, .f32⟩
  | .hbm, ⟨57, _⟩ => ⟨S850000x1, .f32⟩
  | .hbm, ⟨58, _⟩ => ⟨S850000x128, .f32⟩
  | .hbm, ⟨59, _⟩ => ⟨S850000x128, .f32⟩
  | .hbm, ⟨60, _⟩ => ⟨S_, .f32⟩
  | .hbm, ⟨61, _⟩ => ⟨S50000x128, .f32⟩
  | .hbm, ⟨62, _⟩ => ⟨S850000x1, .i32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S50000x128, .f32⟩
  | .hbm, ⟨69, _⟩ => ⟨S50000x128, .f32⟩
  | .hbm, ⟨70, _⟩ => ⟨S50000x40, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x40, .f32⟩
  | .hbm, ⟨80, _⟩ => ⟨S850000x1, .f32⟩
  | .hbm, ⟨81, _⟩ => ⟨S850000x40, .f32⟩
  | .hbm, ⟨82, _⟩ => ⟨S850000x40, .f32⟩
  | .hbm, ⟨83, _⟩ => ⟨S_, .f32⟩
  | .hbm, ⟨84, _⟩ => ⟨S50000x40, .f32⟩
  | .hbm, ⟨85, _⟩ => ⟨S850000x1, .i32⟩
  | .hbm, ⟨86, _⟩ => ⟨S50000x40, .f32⟩
  | .hbm, ⟨87, _⟩ => ⟨S1x40, .f32⟩
  | .hbm, ⟨88, _⟩ => ⟨S50000x40, .f32⟩
  | .hbm, ⟨89, _⟩ => ⟨S50000x40, .f32⟩
  | .hbm, ⟨90, _⟩ => ⟨S_, .f32⟩
  | .hbm, ⟨91, _⟩ => ⟨S50000, .f32⟩
  | .hbm, ⟨92, _⟩ => ⟨S_, .f32⟩
  | .hbm, ⟨93, _⟩ => ⟨S50000, .f32⟩
  | .hbm, ⟨94, _⟩ => ⟨S50000, .f32⟩
  | .hbm, ⟨95, _⟩ => ⟨S50000x1, .f32⟩
  | .hbm, ⟨96, _⟩ => ⟨S50000x40, .f32⟩
  | .hbm, ⟨97, _⟩ => ⟨S50000x40, .f32⟩
  | .hbm, ⟨98, _⟩ => ⟨S50000x40, .f32⟩
  | .hbm, ⟨99, _⟩ => ⟨S_, .f32⟩
  | .hbm, ⟨100, _⟩ => ⟨S50000, .f32⟩
  | .hbm, ⟨101, _⟩ => ⟨S50000x1, .f32⟩
  | .hbm, ⟨102, _⟩ => ⟨S50000x1, .f32⟩
  | .hbm, ⟨103, _⟩ => ⟨S50000x40, .f32⟩
  | .hbm, ⟨104, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_call2_cst : Ref sig .tc := ⟨.hbm, 90, rfl⟩
abbrev main_call2_v0 : Ref sig .tc := ⟨.hbm, 91, rfl⟩
abbrev main_call2_cst_0 : Ref sig .tc := ⟨.hbm, 92, rfl⟩
abbrev main_call2_v1 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_call2_v5 : Ref sig .tc := ⟨.hbm, 97, rfl⟩
abbrev main_call2_v6 : Ref sig .tc := ⟨.hbm, 98, rfl⟩
abbrev main_call2_cst_1 : Ref sig .tc := ⟨.hbm, 99, rfl⟩
abbrev main_call2_v7 : Ref sig .tc := ⟨.hbm, 100, rfl⟩
abbrev main_call2_v8 : Ref sig .tc := ⟨.hbm, 101, rfl⟩
abbrev main_call2_v9 : Ref sig .tc := ⟨.hbm, 102, rfl⟩
abbrev main_call2_v10 : Ref sig .tc := ⟨.hbm, 103, rfl⟩
abbrev main_v66 : Ref sig .tc := ⟨.hbm, 104, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x40_S50000x40_1_0_0_1_n_n_wf : DotDims.WF S50000x128 S128x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.LibTypedRef.lean ====
/-
  A typed reference read back.

  A module-local function's operations address their buffers through typed references: contents at the value's type are
  transported to the buffer's type when written (`toBuf`) and back when read (`ofBuf`). Reading back through the same
  reference what was written through it is the identity, so a chain of such operations composes as its plain functions do.
-/
import Idealize.ShloMosaic.Lib.StableHlo

namespace Cert.LibTypedRef

open Idealize.ShloMosaic Idealize.ShloMosaic.StableHlo

/-- Reading back through a typed reference what was written through it is the identity. -/
theorem ofBuf_toBuf {sig : RefSig} {Val : EltTy → Type} {T : BufTy} (x : TRef sig T) (v : T.Contents Val) :
    x.ofBuf (x.toBuf v) = v := by
  obtain ⟨r, rfl, _, _⟩ := x
  rfl

end Cert.LibTypedRef
-- ==== Proof.RefValue.lean ====
/-
  The reference program's run, read in five stages.

  The reference is a straight line of 99 host operations. Read as one composed term its result is large, because the
  normalisation weights and the two index columns are each used several times. Cut at the layer boundaries it is small:
    1. operations  1 – 41: from the edge list, the source column, the destination column and the edge weights;
    2. operations 42 – 58: the product X · W₁, its rows gathered by source, scaled and summed per destination;
    3. operations 59 – 65: bias, rectifier, and the product with W₂;
    4. operations 66 – 81: the second gather, scale and sum;
    5. operations 82 – 99: bias and the logarithm of the row-wise softmax.
  A stage reads only a few buffers of the stage before (and the arguments), so each is stated over an arbitrary incoming
  valuation `W`: what the stage writes as the stage functions of what it reads, and which buffers it leaves alone.
  Chaining the five gives the result buffer as the last stage function of the arguments, and the arguments unchanged.
  (The last stage is jax's outlined `log_softmax`, whose operations go through typed references: reading back what was
  written through one is the identity, LibTypedRef.lean.)
-/
import proofs.«175116_j48206712930320_1_alg».proof.Proof.RefRun
import proofs.«175116_j48206712930320_1_alg».proof.Proof.RefRead
import proofs.«175116_j48206712930320_1_alg».proof.Proof.LibTypedRef
import Idealize.ShloMosaic.Lib.StableHlo.Run
import Idealize.ShloMosaic.Lib.Pipeline.Frame

set_option maxRecDepth 16384

noncomputable section

namespace Cert.ReferenceIdeal.RefValue

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The operation list is its five stages, one after the other. -/
theorem after_stages (V : Valuation τ sig (Elt F)) :
    after (ops (F := F)) V
      = after ((ops (F := F)).drop 81) (after (((ops (F := F)).drop 65).take 16) (after (((ops (F := F)).drop 58).take 7)
          (after (((ops (F := F)).drop 41).take 17) (after ((ops (F := F)).take 41) V)))) := by
  rw [← StableHlo.after_append, ← StableHlo.after_append, ← StableHlo.after_append, ← StableHlo.after_append]
  exact congrArg (fun l => after l V) (by rfl)

/-- Spell a stage's slice of the operation list out, then read the buffer through it. -/
local macro "stage_read" : tactic =>
  `(tactic| (simp only [ops, List.take, List.drop]; after_results))

section Stages

variable (W : Valuation τ sig (Elt F))

/-! ## Stage 1: the edge list's columns and weights -/

theorem s1_src : after ((ops (F := F)).take 41) W (Proc.devRef .tc main_v3) = val_main_v3 (F := F) (W (Proc.devRef .tc main_arg1)) := by
  stage_read; rfl
theorem s1_dst : after ((ops (F := F)).take 41) W (Proc.devRef .tc main_v6) = val_main_v6 (F := F) (W (Proc.devRef .tc main_arg1)) := by
  stage_read; rfl
set_option maxHeartbeats 8000000 in
theorem s1_wgt : after ((ops (F := F)).take 41) W (Proc.devRef .tc main_v30) = val_main_v30 (F := F) (W (Proc.devRef .tc main_arg1)) := by
  stage_read; rfl
theorem s1_arg0 : after ((ops (F := F)).take 41) W (Proc.devRef .tc main_arg0) = W (Proc.devRef .tc main_arg0) := by stage_read
theorem s1_arg1 : after ((ops (F := F)).take 41) W (Proc.devRef .tc main_arg1) = W (Proc.devRef .tc main_arg1) := by stage_read
theorem s1_arg2 : after ((ops (F := F)).take 41) W (Proc.devRef .tc main_arg2) = W (Proc.devRef .tc main_arg2) := by stage_read
theorem s1_arg3 : after ((ops (F := F)).take 41) W (Proc.devRef .tc main_arg3) = W (Proc.devRef .tc main_arg3) := by stage_read
theorem s1_arg4 : after ((ops (F := F)).take 41) W (Proc.devRef .tc main_arg4) = W (Proc.devRef .tc main_arg4) := by stage_read
theorem s1_arg5 : after ((ops (F := F)).take 41) W (Proc.devRef .tc main_arg5) = W (Proc.devRef .tc main_arg5) := by stage_read

/-! ## Stage 2: the first product and its aggregation -/

set_option maxHeartbeats 8000000 in
theorem s2_agg (x0 : (⟨S50000x128, .f32⟩ : BufTy).Contents (Elt F)) (x1 : (⟨S2x800000, .i32⟩ : BufTy).Contents (Elt F))
    (x2 : (⟨S128x128, .f32⟩ : BufTy).Contents (Elt F))
    (h0 : W (Proc.devRef .tc main_arg0) = x0) (h2 : W (Proc.devRef .tc main_arg2) = x2)
    (hs : W (Proc.devRef .tc main_v3) = val_main_v3 (F := F) x1) (hd : W (Proc.devRef .tc main_v6) = val_main_v6 (F := F) x1)
    (hw : W (Proc.devRef .tc main_v30) = val_main_v30 (F := F) x1) :
    after (((ops (F := F)).drop 41).take 17) W (Proc.devRef .tc main_v44) = val_main_v44 (F := F) x0 x1 x2 := by
  stage_read; rw [h0, h2, hs, hd, hw]; rfl
theorem s2_src : after (((ops (F := F)).drop 41).take 17) W (Proc.devRef .tc main_v3) = W (Proc.devRef .tc main_v3) := by stage_read
theorem s2_dst : after (((ops (F := F)).drop 41).take 17) W (Proc.devRef .tc main_v6) = W (Proc.devRef .tc main_v6) := by stage_read
theorem s2_wgt : after (((ops (F := F)).drop 41).take 17) W (Proc.devRef .tc main_v30) = W (Proc.devRef .tc main_v30) := by stage_read
theorem s2_arg0 : after (((ops (F := F)).drop 41).take 17) W (Proc.devRef .tc main_arg0) = W (Proc.devRef .tc main_arg0) := by stage_read
theorem s2_arg1 : after (((ops (F := F)).drop 41).take 17) W (Proc.devRef .tc main_arg1) = W (Proc.devRef .tc main_arg1) := by stage_read
theorem s2_arg2 : after (((ops (F := F)).drop 41).take 17) W (Proc.devRef .tc main_arg2) = W (Proc.devRef .tc main_arg2) := by stage_read
theorem s2_arg3 : after (((ops (F := F)).drop 41).take 17) W (Proc.devRef .tc main_arg3) = W (Proc.devRef .tc main_arg3) := by stage_read
theorem s2_arg4 : after (((ops (F := F)).drop 41).take 17) W (Proc.devRef .tc main_arg4) = W (Proc.devRef .tc main_arg4) := by stage_read
theorem s2_arg5 : after (((ops (F := F)).drop 41).take 17) W (Proc.devRef .tc main_arg5) = W (Proc.devRef .tc main_arg5) := by stage_read

/-! ## Stage 3: bias, rectifier, second product -/

theorem s3_prod (x0 : (⟨S50000x128, .f32⟩ : BufTy).Contents (Elt F)) (x1 : (⟨S2x800000, .i32⟩ : BufTy).Contents (Elt F))
    (x2 : (⟨S128x128, .f32⟩ : BufTy).Contents (Elt F)) (x3 : (⟨S128, .f32⟩ : BufTy).Contents (Elt F))
    (x4 : (⟨S128x40, .f32⟩ : BufTy).Contents (Elt F))
    (ha : W (Proc.devRef .tc main_v44) = val_main_v44 (F := F) x0 x1 x2)
    (h3 : W (Proc.devRef .tc main_arg3) = x3) (h4 : W (Proc.devRef .tc main_arg4) = x4) :
    after (((ops (F := F)).drop 58).take 7) W (Proc.devRef .tc main_v49) = val_main_v49 (F := F) x0 x1 x2 x3 x4 := by
  stage_read; rw [ha, h3, h4]; rfl
theorem s3_src : after (((ops (F := F)).drop 58).take 7) W (Proc.devRef .tc main_v3) = W (Proc.devRef .tc main_v3) := by stage_read
theorem s3_dst : after (((ops (F := F)).drop 58).take 7) W (Proc.devRef .tc main_v6) = W (Proc.devRef .tc main_v6) := by stage_read
theorem s3_wgt : after (((ops (F := F)).drop 58).take 7) W (Proc.devRef .tc main_v30) = W (Proc.devRef .tc main_v30) := by stage_read
theorem s3_arg0 : after (((ops (F := F)).drop 58).take 7) W (Proc.devRef .tc main_arg0) = W (Proc.devRef .tc main_arg0) := by stage_read
theorem s3_arg1 : after (((ops (F := F)).drop 58).take 7) W (Proc.devRef .tc main_arg1) = W (Proc.devRef .tc main_arg1) := by stage_read
theorem s3_arg2 : after (((ops (F := F)).drop 58).take 7) W (Proc.devRef .tc main_arg2) = W (Proc.devRef .tc main_arg2) := by stage_read
theorem s3_arg3 : after (((ops (F := F)).drop 58).take 7) W (Proc.devRef .tc main_arg3) = W (Proc.devRef .tc main_arg3) := by stage_read
theorem s3_arg4 : after (((ops (F := F)).drop 58).take 7) W (Proc.devRef .tc main_arg4) = W (Proc.devRef .tc main_arg4) := by stage_read
theorem s3_arg5 : after (((ops (F := F)).drop 58).take 7) W (Proc.devRef .tc main_arg5) = W (Proc.devRef .tc main_arg5) := by stage_read

/-! ## Stage 4: the second aggregation -/

set_option maxHeartbeats 8000000 in
theorem s4_agg (x0 : (⟨S50000x128, .f32⟩ : BufTy).Contents (Elt F)) (x1 : (⟨S2x800000, .i32⟩ : BufTy).Contents (Elt F))
    (x2 : (⟨S128x128, .f32⟩ : BufTy).Contents (Elt F)) (x3 : (⟨S128, .f32⟩ : BufTy).Contents (Elt F))
    (x4 : (⟨S128x40, .f32⟩ : BufTy).Contents (Elt F))
    (hp : W (Proc.devRef .tc main_v49) = val_main_v49 (F := F) x0 x1 x2 x3 x4)
    (hs : W (Proc.devRef .tc main_v3) = val_main_v3 (F := F) x1) (hd : W (Proc.devRef .tc main_v6) = val_main_v6 (F := F) x1)
    (hw : W (Proc.devRef .tc main_v30) = val_main_v30 (F := F) x1) :
    after (((ops (F := F)).drop 65).take 16) W (Proc.devRef .tc main_v62) = val_main_v62 (F := F) x0 x1 x2 x3 x4 := by
  stage_read; rw [hp, hs, hd, hw]; rfl
theorem s4_arg0 : after (((ops (F := F)).drop 65).take 16) W (Proc.devRef .tc main_arg0) = W (Proc.devRef .tc main_arg0) := by stage_read
theorem s4_arg1 : after (((ops (F := F)).drop 65).take 16) W (Proc.devRef .tc main_arg1) = W (Proc.devRef .tc main_arg1) := by stage_read
theorem s4_arg2 : after (((ops (F := F)).drop 65).take 16) W (Proc.devRef .tc main_arg2) = W (Proc.devRef .tc main_arg2) := by stage_read
theorem s4_arg3 : after (((ops (F := F)).drop 65).take 16) W (Proc.devRef .tc main_arg3) = W (Proc.devRef .tc main_arg3) := by stage_read
theorem s4_arg4 : after (((ops (F := F)).drop 65).take 16) W (Proc.devRef .tc main_arg4) = W (Proc.devRef .tc main_arg4) := by stage_read
theorem s4_arg5 : after (((ops (F := F)).drop 65).take 16) W (Proc.devRef .tc main_arg5) = W (Proc.devRef .tc main_arg5) := by stage_read

/-! ## Stage 5: bias and the logarithm of the row-wise softmax -/

set_option maxHeartbeats 8000000 in
theorem s5_out (x0 : (⟨S50000x128, .f32⟩ : BufTy).Contents (Elt F)) (x1 : (⟨S2x800000, .i32⟩ : BufTy).Contents (Elt F))
    (x2 : (⟨S128x128, .f32⟩ : BufTy).Contents (Elt F)) (x3 : (⟨S128, .f32⟩ : BufTy).Contents (Elt F))
    (x4 : (⟨S128x40, .f32⟩ : BufTy).Contents (Elt F)) (x5 : (⟨S40, .f32⟩ : BufTy).Contents (Elt F))
    (ha : W (Proc.devRef .tc main_v62) = val_main_v62 (F := F) x0 x1 x2 x3 x4) (h5 : W (Proc.devRef .tc main_arg5) = x5) :
    after ((ops (F := F)).drop 81) W (Proc.devRef .tc main_v66) = val_main_v66 (F := F) x0 x1 x2 x3 x4 x5 := by
  stage_read; rw [ha, h5]
  simp only [Cert.LibTypedRef.ofBuf_toBuf]
  rfl
theorem s5_arg0 : after ((ops (F := F)).drop 81) W (Proc.devRef .tc main_arg0) = W (Proc.devRef .tc main_arg0) := by stage_read
theorem s5_arg1 : after ((ops (F := F)).drop 81) W (Proc.devRef .tc main_arg1) = W (Proc.devRef .tc main_arg1) := by stage_read
theorem s5_arg2 : after ((ops (F := F)).drop 81) W (Proc.devRef .tc main_arg2) = W (Proc.devRef .tc main_arg2) := by stage_read
theorem s5_arg3 : after ((ops (F := F)).drop 81) W (Proc.devRef .tc main_arg3) = W (Proc.devRef .tc main_arg3) := by stage_read
theorem s5_arg4 : after ((ops (F := F)).drop 81) W (Proc.devRef .tc main_arg4) = W (Proc.devRef .tc main_arg4) := by stage_read
theorem s5_arg5 : after ((ops (F := F)).drop 81) W (Proc.devRef .tc main_arg5) = W (Proc.devRef .tc main_arg5) := by stage_read

end Stages

/-! ## The five stages chained -/

/-- The result buffer after the whole line is the last stage function of the arguments' contents. -/
theorem result_eq (V : Valuation τ sig (Elt F)) :
    after (ops (F := F)) V (Proc.devRef .tc main_v66)
      = val_main_v66 (F := F) (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [after_stages]
  refine s5_out _ _ _ _ _ _ _ (s4_agg _ _ _ _ _ _ (s3_prod _ _ _ _ _ _ (s2_agg _ _ _ _ ?_ ?_ ?_ ?_ ?_) ?_ ?_) ?_ ?_ ?_) ?_
  · rw [s1_arg0]
  · rw [s1_arg2]
  · rw [s1_src]
  · rw [s1_dst]
  · rw [s1_wgt]
  · rw [s2_arg3, s1_arg3]
  · rw [s2_arg4, s1_arg4]
  · rw [s3_src, s2_src, s1_src]
  · rw [s3_dst, s2_dst, s1_dst]
  · rw [s3_wgt, s2_wgt, s1_wgt]
  · rw [s4_arg5, s3_arg5, s2_arg5, s1_arg5]

/-- Every argument's buffer after the whole line holds what it held before. -/
theorem kept (V : Valuation τ sig (Elt F)) :
    after (ops (F := F)) V (Proc.devRef .tc main_arg0) = V (Proc.devRef .tc main_arg0)
    ∧ after (ops (F := F)) V (Proc.devRef .tc main_arg1) = V (Proc.devRef .tc main_arg1)
    ∧ after (ops (F := F)) V (Proc.devRef .tc main_arg2) = V (Proc.devRef .tc main_arg2)
    ∧ after (ops (F := F)) V (Proc.devRef .tc main_arg3) = V (Proc.devRef .tc main_arg3)
    ∧ after (ops (F := F)) V (Proc.devRef .tc main_arg4) = V (Proc.devRef .tc main_arg4)
    ∧ after (ops (F := F)) V (Proc.devRef .tc main_arg5) = V (Proc.devRef .tc main_arg5) := by
  rw [after_stages]
  refine ⟨?_, ?_, ?_, ?_, ?_, ?_⟩
  · rw [s5_arg0, s4_arg0, s3_arg0, s2_arg0, s1_arg0]
  · rw [s5_arg1, s4_arg1, s3_arg1, s2_arg1, s1_arg1]
  · rw [s5_arg2, s4_arg2, s3_arg2, s2_arg2, s1_arg2]
  · rw [s5_arg3, s4_arg3, s3_arg3, s2_arg3, s1_arg3]
  · rw [s5_arg4, s4_arg4, s3_arg4, s2_arg4, s1_arg4]
  · rw [s5_arg5, s4_arg5, s3_arg5, s2_arg5, s1_arg5]

/-- The reference's run: every weakly fair execution terminates with the result buffer at the last stage function of the
    arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v66)
        = val_main_v66 (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    have k := kept (F := F) (launchContents m c)
    ⟨(h c main_v66).trans (result_eq (F := F) (launchContents m c)),
      (h c main_arg0).trans k.1, (h c main_arg1).trans k.2.1, (h c main_arg2).trans k.2.2.1,
      (h c main_arg3).trans k.2.2.2.1, (h c main_arg4).trans k.2.2.2.2.1, (h c main_arg5).trans k.2.2.2.2.2⟩)
    (run_seq scopedRefs_eq scopedSems_eq defs main (fun _ => ops) main_eq (fun _ => ops_sub) m ρ)

end Cert.ReferenceIdeal.RefValue

end
-- ==== Proof.LibRowReduce.lean ====
/-
  A row's maximum and a row's sum, as a kernel and as the host compute them.

  For an array `v : [R, C]` reduced along its second axis, over the extended reals: the kernel's lane maximum from the
  word of `-∞` and the host's reduce with a maximum body from the same word are both the fold of `max` over the row's
  `C` entries; the kernel's lane sum and the host's sum from zero are both the plain sum of the row's entries. Also the
  two small facts that go with them: `max (-∞) y = y`, and a vector `[R]` recast as a column `[R, 1]` reads its row.
-/
import Mathlib
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.LibRowReduce

open Idealize.ShloMosaic Idealize.ShloMosaic.ValueIdx

variable {R C : Nat}

/-- The maximum of `C` extended reals, folded from the f32 word of `-∞`. -/
def rowMax (f : Fin C → EReal) : EReal :=
  (Finset.univ : Finset (Fin C)).fold max (Ideal.ofBits .f32 0xFF800000#32) f

/-- The f32 word `0xFF800000` is `-∞`, the identity of `max`. -/
theorem max_negInf (y : EReal) : max (Ideal.ofBits .f32 0xFF800000#32) y = y := by
  simp [Ideal.ofBits, Ideal.ieee]

/-- The reduced index `r` with lane `k` put back is `(r, k)`. -/
theorem lift_row (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  fin_cases c <;> rfl

/-- The kernel's lane maximum of row `r`. -/
theorem multiReduction_max_row (src : FVec Ideal ⟨2, ![R, C]⟩ .f32)
    (h : (⟨2, ![R, C]⟩ : Shape).Reduces [1] (⟨1, ![R]⟩ : Shape)) (hφ : FKind.Formats .f32)
    (hacc : (0xFF800000#32 : BitVec 32) = FKind.maximumf.neutral .f32 hφ) (r : Fin R) :
    multiReduction .maximumf [1] (⟨1, ![R]⟩ : Shape) src 0xFF800000#32 h hφ hacc (ix1 r) = rowMax fun k => src (ix2 r k) := by
  rw [Ideal.multiReduction_maximumf_single src _ h hφ hacc (ix1 r)]
  have hf : (src ∘ h.lift (ix1 r)) = fun k : Fin C => src (ix2 r k) :=
    funext fun k => congrArg src (lift_row h r k)
  unfold rowMax
  exact congrArg (fun f => Finset.fold max (Ideal.ofBits .f32 0xFF800000#32) f (Finset.univ : Finset (Fin C))) hf

/-- The host's reduce with a maximum body along axis 1, from the word of `-∞`, at row `r`. -/
theorem hostReduce_max_row (x : FVec Ideal ⟨2, ![R, C]⟩ .f32) (init : (⟨0, ![]⟩ : Shape).Idx → Ideal .f32)
    (hinit : ∀ i, init i = Ideal.ofBits .f32 0xFF800000#32)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduce FloatOps.maximumf x init h' hu (ix1 r) = rowMax fun k => x (ix2 r k) := by
  rw [Host.reduce_eq_fold_single FloatOps.maximumf x _ h' h hu, hinit]
  have hf : (x ∘ h.lift (ix1 r)) = fun k : Fin C => x (ix2 r k) :=
    funext fun k => congrArg x (lift_row h r k)
  unfold rowMax
  exact congrArg (fun f => Finset.fold max (Ideal.ofBits .f32 0xFF800000#32) f (Finset.univ : Finset (Fin C))) hf

/-- The kernel's lane sum of row `r`. -/
theorem multiReduction_add_row (src : FVec Ideal ⟨2, ![R, C]⟩ .f32)
    (h : (⟨2, ![R, C]⟩ : Shape).Reduces [1] (⟨1, ![R]⟩ : Shape)) (hφ : FKind.Formats .f32)
    (hacc : (0x00000000#32 : BitVec 32) = FKind.add.neutral .f32 hφ) (r : Fin R) :
    multiReduction .add [1] (⟨1, ![R]⟩ : Shape) src 0x00000000#32 h hφ hacc (ix1 r) = ∑ k : Fin C, src (ix2 r k) := by
  rw [Ideal.multiReduction_add_single src _ h hφ hacc (ix1 r)]
  refine Finset.sum_congr rfl fun k _ => ?_
  exact congrArg src (lift_row h r k)

/-- The host's sum along axis 1 from zero, at row `r`. -/
theorem hostReduceAdd_row (x : FVec Ideal ⟨2, ![R, C]⟩ .f32) (init : (⟨0, ![]⟩ : Shape).Idx → Ideal .f32)
    (hinit : ∀ i, init i = 0)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduceAdd (F := Ideal) x init h' hu (ix1 r) = ∑ k : Fin C, x (ix2 r k) := by
  show Ideal.hostReduceAdd h' x (init (Shape.Idx.first hu)) (ix1 r) = _
  rw [Ideal.hostReduceAdd_single h' h, hinit, zero_add]
  refine Finset.sum_congr rfl fun k _ => ?_
  exact congrArg x (lift_row h r k)

/-- A vector `[R]` recast as a column `[R, 1]` reads its row. -/
theorem shapeCast_col_apply {α : Type} (v : (⟨1, ![R]⟩ : Shape).Idx → α) (h : (⟨1, ![R]⟩ : Shape).ShapeCasts ⟨2, ![R, 1]⟩)
    (r : Fin R) : shapeCast ⟨2, ![R, 1]⟩ v h (ix2 r (0 : Fin 1)) = v (ix1 r) := by
  refine shapeCast_apply v h _ _ ?_
  rw [Shape.rowMajor_val_two, Shape.rowMajor_val_one]
  show r.val = r.val * 1 + 0
  omega

end Cert.LibRowReduce

end
-- ==== Proof.Layers.lean ====
/-
  The three dense stages of a two-layer graph convolution, each as one function of whole arrays over the extended reals.

  Between the graph aggregations (gather the source rows, scale them, add them up per destination) the network applies
  three dense maps to an array of R = 50000 rows, and every one of them acts on each row by itself:
    * the product with a weight matrix:                 (X · W)[p, q] = Σ_k X[p, k] · W[k, q];
    * bias, rectifier, product:                         Σ_k max(A[p, k] + b[k], 0) · W[k, q];
    * bias and the logarithm of the softmax of a row:   with z[p, c] = A[p, c] + b[c] and M[p] the maximum of row p of z,
                                                        (z[p, c] − M[p]) − log Σ_k exp(z[p, k] − M[p]).
  Because each acts row by row, computing it on a block of consecutive rows gives the same rows as computing it on the
  whole array; that is all the two programs differ by, and nothing below needs an entry to be finite.
  The maximum of a row is the fold of `max` from −∞ (`rowMax`), the form both programs' reductions take.
-/
import Mathlib
import Idealize.ShloMosaic.PureOps.Ideal
import Idealize.ShloMosaic.Lib.ValueIdx
import proofs.«175116_j48206712930320_1_alg».proof.Proof.LibRowReduce

noncomputable section

open scoped BigOperators

namespace Cert.GcnLayers

open Idealize.ShloMosaic Idealize.ShloMosaic.ValueIdx Cert.LibRowReduce

variable {R K N C : Nat}

/-! ## The product with a weight matrix -/

/-- Entry (p, q) of X · W. -/
def prodEntry (X : (⟨2, ![R, K]⟩ : Shape).Idx → EReal) (W : (⟨2, ![K, N]⟩ : Shape).Idx → EReal) (p : Fin R) (q : Fin N) : EReal :=
  ∑ k : Fin K, X (ix2 p k) * W (ix2 k q)

/-- X · W as an array. -/
def prodArr (X : (⟨2, ![R, K]⟩ : Shape).Idx → EReal) (W : (⟨2, ![K, N]⟩ : Shape).Idx → EReal) :
    (⟨2, ![R, N]⟩ : Shape).Idx → EReal := fun i => prodEntry X W (i 0) (i 1)

theorem prodArr_apply (X : (⟨2, ![R, K]⟩ : Shape).Idx → EReal) (W : (⟨2, ![K, N]⟩ : Shape).Idx → EReal) (p : Fin R) (q : Fin N) :
    prodArr X W (ix2 p q) = prodEntry X W p q := rfl

/-! ## Bias, rectifier, product -/

/-- The hidden activation max(A[p, k] + b[k], 0). -/
def hidden (A : (⟨2, ![R, K]⟩ : Shape).Idx → EReal) (b : Fin K → EReal) (p : Fin R) (k : Fin K) : EReal :=
  max (A (ix2 p k) + b k) 0

/-- Entry (p, q) of relu(A + b) · W. -/
def reluProdEntry (A : (⟨2, ![R, K]⟩ : Shape).Idx → EReal) (b : Fin K → EReal) (W : (⟨2, ![K, N]⟩ : Shape).Idx → EReal)
    (p : Fin R) (q : Fin N) : EReal :=
  ∑ k : Fin K, hidden A b p k * W (ix2 k q)

/-- relu(A + b) · W as an array. -/
def reluProdArr (A : (⟨2, ![R, K]⟩ : Shape).Idx → EReal) (b : Fin K → EReal) (W : (⟨2, ![K, N]⟩ : Shape).Idx → EReal) :
    (⟨2, ![R, N]⟩ : Shape).Idx → EReal := fun i => reluProdEntry A b W (i 0) (i 1)

theorem reluProdArr_apply (A : (⟨2, ![R, K]⟩ : Shape).Idx → EReal) (b : Fin K → EReal) (W : (⟨2, ![K, N]⟩ : Shape).Idx → EReal)
    (p : Fin R) (q : Fin N) : reluProdArr A b W (ix2 p q) = reluProdEntry A b W p q := rfl

/-! ## Bias and the logarithm of a row's softmax -/

/-- The biased logit z[p, c] = A[p, c] + b[c]. -/
def logit (A : (⟨2, ![R, C]⟩ : Shape).Idx → EReal) (b : Fin C → EReal) (p : Fin R) (c : Fin C) : EReal :=
  A (ix2 p c) + b c

/-- The logit less its row's maximum. -/
def shifted (A : (⟨2, ![R, C]⟩ : Shape).Idx → EReal) (b : Fin C → EReal) (p : Fin R) (c : Fin C) : EReal :=
  logit A b p c - rowMax fun k => logit A b p k

/-- Entry (p, c) of the logarithm of the row-wise softmax of A + b. -/
def logSoftmaxEntry (A : (⟨2, ![R, C]⟩ : Shape).Idx → EReal) (b : Fin C → EReal) (p : Fin R) (c : Fin C) : EReal :=
  shifted A b p c - Ideal.log (∑ k : Fin C, Ideal.exp (shifted A b p k))

/-- The logarithm of the row-wise softmax of A + b as an array. -/
def logSoftmaxArr (A : (⟨2, ![R, C]⟩ : Shape).Idx → EReal) (b : Fin C → EReal) :
    (⟨2, ![R, C]⟩ : Shape).Idx → EReal := fun i => logSoftmaxEntry A b (i 0) (i 1)

theorem logSoftmaxArr_apply (A : (⟨2, ![R, C]⟩ : Shape).Idx → EReal) (b : Fin C → EReal) (p : Fin R) (c : Fin C) :
    logSoftmaxArr A b (ix2 p c) = logSoftmaxEntry A b p c := rfl

end Cert.GcnLayers

end
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.ProductRows.lean ====
/-
  Layer 1's dense stage as the kernel computes it: the product X · W₁, 2000 rows at a time.

  The kernel's grid has 25 points. Point t stages rows 2000·t … 2000·t + 1999 of X (all 128 columns) and the whole of W₁,
  multiplies the block by W₁ into a zero accumulator, and writes the 2000 × 128 result back as the same rows of the output.
  Entry (p, q) of a block's product is Σ_k X[2000·t + p, k] · W₁[k, q], which is entry (2000·t + p, q) of X · W₁: a row of
  a product depends on that row of the left factor only. The 25 blocks tile the 50000 rows, so the output array ends
  holding X · W₁, whatever the region found in it. (The change of float format before the product is the identity on
  the extended reals.) Stated for any contents `V` of the buffers when the region is entered.
-/
import proofs.«175116_j48206712930320_1_alg».proof.Proof.Gen.KernelIdeal.Frame
import proofs.«175116_j48206712930320_1_alg».proof.Proof.Layers
import proofs.«175116_j48206712930320_1_alg».proof.Proof.LibDotRows
import Idealize.ShloMosaic.Lib.Pipeline.Value
import Idealize.ShloMosaic.Lib.ValueIdx

set_option maxRecDepth 16384

noncomputable section

open scoped BigOperators

namespace Cert.KernelIdeal.ProductRows

open Cert.KernelIdeal Cert.KernelIdeal.Gen Idealize.ShloMosaic Idealize.ShloMosaic.TcCoe Idealize.ShloMosaic.ValueIdx
open Idealize.SL.Sem Cert.GcnLayers
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

/-- The body's product at entry (p, q): the sum over k of the row block's (p, k) times the weight's (k, q). -/
theorem pay_apply (x0 : FVec Ideal S2000x128 .f32) (x1 : FVec Ideal S128x128 .f32) (p : Fin 2000) (q : Fin 128) :
    k0_pay1 (F := Ideal) x0 x1 (ix2 p q) = ∑ k : Fin 128, x0 (ix2 p k) * x1 (ix2 k q) := by
  unfold k0_pay1
  exact Cert.Lib.DotRows.matmul_plain_apply (M := 2000) (K := 128) (N := 128)
    (truncf .bf16 x0 bitsLt_bf16_f32) (truncf .bf16 x1 bitsLt_bf16_f32) p q

/-- The index maps over the 25 points: the two row windows sit at block row t, the weight at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the block of X at point t is X[2000·t + p, k]. -/
theorem read_rows (c : Dev nD) (t : Fin cfg0.N) (p : Fin 2000) (k : Fin 128) (i : S50000x128.Idx)
    (h0 : (i 0).val = t.val * 2000 + p.val) (h1 : (i 1).val = k.val) :
    iblk0 V c 0 t (ix2 p k) = V c main_arg0 i := by
  obtain ⟨e0, e1, -, -, -, -⟩ := idx_facts t
  show V c main_arg0 (((cfg0.win 0).blk t).view.emb (ix2 p k)) = V c main_arg0 i
  refine congrArg (V c main_arg0) (funext fun a => Fin.ext ?_)
  match a with
  | ⟨0, _⟩ => show win0_0.index t (0 : Fin 2) * 2000 + 1 * p.val = (i 0).val; omega
  | ⟨1, _⟩ => show win0_0.index t (1 : Fin 2) * 128 + 1 * k.val = (i 1).val; omega

/-- Entry (k, q) of the staged weight is W₁[k, q] at every point. -/
theorem read_weight (c : Dev nD) (t : Fin cfg0.N) (k : Fin 128) (q : Fin 128) (i : S128x128.Idx)
    (h0 : (i 0).val = k.val) (h1 : (i 1).val = q.val) :
    iblk0 V c 1 t (ix2 k q) = V c main_arg2 i := by
  obtain ⟨-, -, e2, e3, -, -⟩ := idx_facts t
  show V c main_arg2 (((cfg0.win 1).blk t).view.emb (ix2 k q)) = V c main_arg2 i
  refine congrArg (V c main_arg2) (funext fun a => Fin.ext ?_)
  match a with
  | ⟨0, _⟩ => show win0_1.index t (0 : Fin 2) * 128 + 1 * k.val = (i 0).val; omega
  | ⟨1, _⟩ => show win0_1.index t (1 : Fin 2) * 128 + 1 * q.val = (i 1).val; omega

/-- What point t writes back is block t of X · W₁. -/
theorem flushed_eq (c : Dev nD) (t : Fin cfg0.N) :
    (dat0 V c).flushed 2 t
      = ((cfg0.win 2).blk t).view.read (Elt Ideal) (prodArr (R := 50000) (K := 128) (N := 128) (V c main_arg0) (V c main_arg2)) := by
  show (cfg0.win 2).cut (grid0.coords t) ((dat0 V c).after 2 t) = _
  rw [after0_2]
  unfold out0_2
  rw [View.canon_unit_zero off_zero]
  simp only [View.ld_unit_zero (S := S2000x128) off_zero, View.ld_unit_zero (S := S128x128) off_zero]
  obtain ⟨-, -, -, -, e4, e5⟩ := idx_facts t
  funext j
  obtain ⟨p, q, rfl⟩ : ∃ (p : Fin 2000) (q : Fin 128), j = ix2 p q := ⟨j 0, j 1, eq_ix2 j⟩
  show k0_pay1 (iblk0 V c 0 t) (iblk0 V c 1 t) (ix2 p q)
    = prodArr (R := 50000) (K := 128) (N := 128) (V c main_arg0) (V c main_arg2) (((cfg0.win 2).blk t).view.emb (ix2 p q))
  refine (pay_apply (iblk0 V c 0 t) (iblk0 V c 1 t) p q).trans ?_
  unfold prodArr prodEntry
  refine Finset.sum_congr rfl fun k _ => ?_
  have hr : ((((cfg0.win 2).blk t).view.emb (ix2 p q)) 0).val = t.val * 2000 + p.val := by
    show win0_2.index t (0 : Fin 2) * 2000 + 1 * p.val = _; omega
  have hq : ((((cfg0.win 2).blk t).view.emb (ix2 p q)) 1).val = q.val := by
    show win0_2.index t (1 : Fin 2) * 128 + 1 * q.val = _; omega
  rw [read_rows V c t p k (ix2 ((((cfg0.win 2).blk t).view.emb (ix2 p q)) 0) k) hr rfl,
    read_weight V c t k q (ix2 k ((((cfg0.win 2).blk t).view.emb (ix2 p q)) 1)) rfl hq]

/-- An index is in point t's output block iff each coordinate is in the block's range on its axis. -/
theorem mem_blk (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v31).slice (win0_2.rect t)).set ↔ _
  rw [View.set_slice_whole, Rect.mem_set_unit]
  exact Iff.rfl

/-- Row r lies in the block of point r / 2000: the 25 blocks tile the array. -/
theorem cover (i : S50000x128.Idx) :
    ∃ t : Fin cfg0.N, (cfg0.win 2).flush t = true ∧ i ∈ ((cfg0.win 2).blk t).view.set := by
  have h0 : (i 0).val < 50000 := (i 0).isLt
  have h1 : (i 1).val < 128 := (i 1).isLt
  have hN : cfg0.N = 25 := N_0
  refine ⟨⟨(i 0).val / 2000, by rw [hN]; omega⟩, flush0_2 _, ?_⟩
  obtain ⟨-, -, -, -, e4, e5⟩ := idx_facts ⟨(i 0).val / 2000, by rw [hN]; omega⟩
  rw [mem_blk]
  intro a
  match a with
  | ⟨0, _⟩ =>
    show win0_2.index _ (0 : Fin 2) * 2000 ≤ (i 0).val ∧ (i 0).val < win0_2.index _ (0 : Fin 2) * 2000 + 2000
    rw [e4]; show (i 0).val / 2000 * 2000 ≤ (i 0).val ∧ (i 0).val < (i 0).val / 2000 * 2000 + 2000; omega
  | ⟨1, _⟩ =>
    show win0_2.index _ (1 : Fin 2) * 128 ≤ (i 1).val ∧ (i 1).val < win0_2.index _ (1 : Fin 2) * 128 + 128
    rw [e5]; omega

/-- The region's output array ends holding X · W₁ of the arrays the region found. -/
theorem final (c : Dev nD) :
    (dat0 V c).arrAt 2 cfg0.N = prodArr (R := 50000) (K := 128) (N := 128) (V c main_arg0) (V c main_arg2) :=
  (dat0 V c).arrAt_eq_of_cover 2 _ (fun t _ => flushed_eq V c t) cover

end Cert.KernelIdeal.ProductRows

end
-- ==== Proof.ReluProductRows.lean ====
/-
  Layer 2's dense stage as the kernel computes it: relu(A + b₁) · W₂, 2000 rows at a time.

  The grid has 25 points. Point t stages rows 2000·t … 2000·t + 1999 of the aggregated array A (128 columns), the bias as
  one row [1, 128] and the whole of W₂ [128, 40]; it adds the bias row to every row of the block, takes the maximum with
  zero, multiplies by W₂ into a zero accumulator and writes the 2000 × 40 result back as the same rows of the output.
  Entry (p, q) of a block's result is Σ_k max(A[2000·t + p, k] + b₁[k], 0) · W₂[k, q] — a function of row 2000·t + p of A
  alone —, and the 25 blocks tile the 50000 rows. Stated for any contents `V` of the buffers when the region is entered;
  the bias row is read off its staged [1, 128] array as `fun k => V c main_v45 (0, k)`.
-/
import proofs.«175116_j48206712930320_1_alg».proof.Proof.Gen.KernelIdeal.Frame
import proofs.«175116_j48206712930320_1_alg».proof.Proof.Layers
import proofs.«175116_j48206712930320_1_alg».proof.Proof.LibDotRows
import Idealize.ShloMosaic.Lib.Pipeline.Value
import Idealize.ShloMosaic.Lib.ValueIdx
import Idealize.ShloMosaic.Lib.ValueLayout

set_option maxRecDepth 16384

noncomputable section

open scoped BigOperators

namespace Cert.KernelIdeal.ReluProductRows

open Cert.KernelIdeal Cert.KernelIdeal.Gen Idealize.ShloMosaic Idealize.ShloMosaic.TcCoe Idealize.ShloMosaic.ValueIdx
open Idealize.SL.Sem Cert.GcnLayers
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

/-- The block with the bias row added and the rectifier applied, at entry (p, k). -/
theorem hidden_apply (x0 : FVec Ideal S2000x128 .f32) (x1 : FVec Ideal S1x128 .f32) (p : Fin 2000) (k : Fin 128) :
    maximumf (addf (shapeCast S2000x128 x0 shapeCasts_S2000x128_S2000x128)
        (broadcastTo S2000x128 (shapeCast S1x128 x1 shapeCasts_S1x128_S1x128) broadcasts_S1x128_S2000x128))
      (broadcast S2000x128 (Scalar.ofBits (F := Ideal) .f32 0x00000000#32)) (ix2 p k)
      = max (x0 (ix2 p k) + x1 (ix2 (0 : Fin 1) k)) 0 := by
  rw [shapeCast_self, shapeCast_self]
  show max (x0 (ix2 p k) + broadcastTo S2000x128 x1 broadcasts_S1x128_S2000x128 (ix2 p k)) (Ideal.ofBits .f32 0x00000000#32) = _
  rw [broadcastTo_1b_ab_apply, Ideal.ofBits_zero_f32]

/-- The body's result at entry (p, q). -/
theorem pay_apply (x0 : FVec Ideal S2000x128 .f32) (x1 : FVec Ideal S1x128 .f32) (x2 : FVec Ideal S128x40 .f32)
    (p : Fin 2000) (q : Fin 40) :
    k1_pay1 (F := Ideal) x0 x1 x2 (ix2 p q)
      = ∑ k : Fin 128, max (x0 (ix2 p k) + x1 (ix2 (0 : Fin 1) k)) 0 * x2 (ix2 k q) := by
  unfold k1_pay1
  refine (Cert.Lib.DotRows.matmul_plain_apply (M := 2000) (K := 128) (N := 40) _ _ p q).trans ?_
  refine Finset.sum_congr rfl fun k _ => ?_
  exact congrArg (· * x2 (ix2 k q)) (hidden_apply x0 x1 p k)

/-- The index maps over the 25 points: the row windows sit at block row t, the bias and the weight at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry (p, k) of the block of A at point t is A[2000·t + p, k]. -/
theorem read_rows (c : Dev nD) (t : Fin cfg1.N) (p : Fin 2000) (k : Fin 128) (i : S50000x128.Idx)
    (h0 : (i 0).val = t.val * 2000 + p.val) (h1 : (i 1).val = k.val) :
    iblk1 V c 0 t (ix2 p k) = V c main_v44 i := by
  obtain ⟨e0, e1, -⟩ := idx_facts t
  show V c main_v44 (((cfg1.win 0).blk t).view.emb (ix2 p k)) = V c main_v44 i
  refine congrArg (V c main_v44) (funext fun a => Fin.ext ?_)
  match a with
  | ⟨0, _⟩ => show win1_0.index t (0 : Fin 2) * 2000 + 1 * p.val = (i 0).val; omega
  | ⟨1, _⟩ => show win1_0.index t (1 : Fin 2) * 128 + 1 * k.val = (i 1).val; omega

/-- Entry (0, k) of the staged bias row is the bias array's (0, k) at every point. -/
theorem read_bias (c : Dev nD) (t : Fin cfg1.N) (k : Fin 128) :
    iblk1 V c 1 t (ix2 (0 : Fin 1) k) = V c main_v45 (ix2 (0 : Fin 1) k) := by
  obtain ⟨-, -, e2, e3, -⟩ := idx_facts t
  show V c main_v45 (((cfg1.win 1).blk t).view.emb (ix2 (0 : Fin 1) k)) = V c main_v45 (ix2 (0 : Fin 1) k)
  refine congrArg (V c main_v45) (funext fun a => Fin.ext ?_)
  match a with
  | ⟨0, _⟩ => show win1_1.index t (0 : Fin 2) * 1 + 1 * 0 = 0; omega
  | ⟨1, _⟩ => show win1_1.index t (1 : Fin 2) * 128 + 1 * k.val = k.val; omega

/-- Entry (k, q) of the staged weight is W₂[k, q] at every point. -/
theorem read_weight (c : Dev nD) (t : Fin cfg1.N) (k : Fin 128) (q : Fin 40) (i : S128x40.Idx)
    (h0 : (i 0).val = k.val) (h1 : (i 1).val = q.val) :
    iblk1 V c 2 t (ix2 k q) = V c main_arg4 i := by
  obtain ⟨-, -, -, -, e4, e5, -⟩ := idx_facts t
  show V c main_arg4 (((cfg1.win 2).blk t).view.emb (ix2 k q)) = V c main_arg4 i
  refine congrArg (V c main_arg4) (funext fun a => Fin.ext ?_)
  match a with
  | ⟨0, _⟩ => show win1_2.index t (0 : Fin 2) * 128 + 1 * k.val = (i 0).val; omega
  | ⟨1, _⟩ => show win1_2.index t (1 : Fin 2) * 40 + 1 * q.val = (i 1).val; omega

/-- What point t writes back is block t of relu(A + b₁) · W₂. -/
theorem flushed_eq (c : Dev nD) (t : Fin cfg1.N) :
    (dat1 V c).flushed 3 t
      = ((cfg1.win 3).blk t).view.read (Elt Ideal)
          (reluProdArr (R := 50000) (K := 128) (N := 40) (V c main_v44) (fun k => V c main_v45 (ix2 (0 : Fin 1) k)) (V c main_arg4)) := by
  show (cfg1.win 3).cut (grid1.coords t) ((dat1 V c).after 3 t) = _
  rw [after1_3]
  unfold out1_3
  rw [View.canon_unit_zero off_zero]
  simp only [View.ld_unit_zero (S := S2000x128) off_zero, View.ld_unit_zero (S := S1x128) off_zero,
    View.ld_unit_zero (S := S128x40) off_zero]
  obtain ⟨-, -, -, -, -, -, e6, e7⟩ := idx_facts t
  funext j
  obtain ⟨p, q, rfl⟩ : ∃ (p : Fin 2000) (q : Fin 40), j = ix2 p q := ⟨j 0, j 1, eq_ix2 j⟩
  show k1_pay1 (iblk1 V c 0 t) (iblk1 V c 1 t) (iblk1 V c 2 t) (ix2 p q)
    = reluProdArr (R := 50000) (K := 128) (N := 40) (V c main_v44) (fun k => V c main_v45 (ix2 (0 : Fin 1) k)) (V c main_arg4)
        (((cfg1.win 3).blk t).view.emb (ix2 p q))
  refine (pay_apply (iblk1 V c 0 t) (iblk1 V c 1 t) (iblk1 V c 2 t) p q).trans ?_
  unfold reluProdArr reluProdEntry Cert.GcnLayers.hidden
  refine Finset.sum_congr rfl fun k _ => ?_
  have hr : ((((cfg1.win 3).blk t).view.emb (ix2 p q)) 0).val = t.val * 2000 + p.val := by
    show win1_3.index t (0 : Fin 2) * 2000 + 1 * p.val = _; omega
  have hq : ((((cfg1.win 3).blk t).view.emb (ix2 p q)) 1).val = q.val := by
    show win1_3.index t (1 : Fin 2) * 40 + 1 * q.val = _; omega
  rw [read_rows V c t p k (ix2 ((((cfg1.win 3).blk t).view.emb (ix2 p q)) 0) k) hr rfl, read_bias V c t k,
    read_weight V c t k q (ix2 k ((((cfg1.win 3).blk t).view.emb (ix2 p q)) 1)) rfl hq]

/-- An index is in point t's output block iff each coordinate is in the block's range on its axis. -/
theorem mem_blk (t : Fin cfg1.N) (i : S50000x40.Idx) :
    i ∈ ((cfg1.win 3).blk t).view.set ↔ ∀ a : Fin 2, win1_3.index t a * S2000x40.size a ≤ (i a).val
      ∧ (i a).val < win1_3.index t a * S2000x40.size a + S2000x40.size a := by
  show i ∈ ((View.whole main_v46).slice (win1_3.rect t)).set ↔ _
  rw [View.set_slice_whole, Rect.mem_set_unit]
  exact Iff.rfl

/-- Row r lies in the block of point r / 2000: the 25 blocks tile the array. -/
theorem cover (i : S50000x40.Idx) :
    ∃ t : Fin cfg1.N, (cfg1.win 3).flush t = true ∧ i ∈ ((cfg1.win 3).blk t).view.set := by
  have h0 : (i 0).val < 50000 := (i 0).isLt
  have h1 : (i 1).val < 40 := (i 1).isLt
  have hN : cfg1.N = 25 := N_1
  refine ⟨⟨(i 0).val / 2000, by rw [hN]; omega⟩, flush1_3 _, ?_⟩
  obtain ⟨-, -, -, -, -, -, e6, e7⟩ := idx_facts ⟨(i 0).val / 2000, by rw [hN]; omega⟩
  rw [mem_blk]
  intro a
  match a with
  | ⟨0, _⟩ =>
    show win1_3.index _ (0 : Fin 2) * 2000 ≤ (i 0).val ∧ (i 0).val < win1_3.index _ (0 : Fin 2) * 2000 + 2000
    rw [e6]; show (i 0).val / 2000 * 2000 ≤ (i 0).val ∧ (i 0).val < (i 0).val / 2000 * 2000 + 2000; omega
  | ⟨1, _⟩ =>
    show win1_3.index _ (1 : Fin 2) * 40 ≤ (i 1).val ∧ (i 1).val < win1_3.index _ (1 : Fin 2) * 40 + 40
    rw [e7]; omega

/-- The region's output array ends holding relu(A + b₁) · W₂ of the arrays the region found. -/
theorem final (c : Dev nD) :
    (dat1 V c).arrAt 3 cfg1.N
      = reluProdArr (R := 50000) (K := 128) (N := 40) (V c main_v44) (fun k => V c main_v45 (ix2 (0 : Fin 1) k)) (V c main_arg4) :=
  (dat1 V c).arrAt_eq_of_cover 3 _ (fun t _ => flushed_eq V c t) cover

end Cert.KernelIdeal.ReluProductRows

end
-- ==== Proof.LibColBroadcast.lean ====
/-
  One column broadcast over many: a `[a, 1]` array broadcast to `[a, b]` reads, at `(p, c)`, the operand's row `p`.
-/
import Idealize.ShloMosaic.Lib.ValueIdx
import Idealize.ShloMosaic.Lib.Pipeline.Value

noncomputable section

namespace Cert.LibColBroadcast

open Idealize.ShloMosaic Idealize.ShloMosaic.ValueIdx

variable {α : Type}

/-- A `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast

end
-- ==== Proof.LogSoftmaxRows.lean ====
/-
  The last dense stage as the kernel computes it: the logarithm of the row-wise softmax of A + b₂, 2000 rows at a time.

  The grid has 25 points. Point t stages rows 2000·t … 2000·t + 1999 of the aggregated array A (40 columns) and the bias
  as one row [1, 40]. With z = block + bias row, the body takes each row's maximum M (a lane reduction from −∞), forms
  s = z − M, sums exp s along each row, and stores s − log Σ exp s. Every one of these acts on a row by itself, so entry
  (p, c) of the block's result is the log-softmax entry (2000·t + p, c) of the whole array A + b₂, and the 25 blocks tile the
  50000 rows. Stated for any contents `V` of the buffers when the region is entered; the bias is read off its staged
  [1, 40] array as `fun k => V c main_v60 (0, k)`.
-/
import proofs.«175116_j48206712930320_1_alg».proof.Proof.Gen.KernelIdeal.Frame
import proofs.«175116_j48206712930320_1_alg».proof.Proof.Layers
import proofs.«175116_j48206712930320_1_alg».proof.Proof.LibRowReduce
import proofs.«175116_j48206712930320_1_alg».proof.Proof.LibColBroadcast
import Idealize.ShloMosaic.Lib.Pipeline.Value
import Idealize.ShloMosaic.Lib.ValueIdx
import Idealize.ShloMosaic.Lib.ValueLayout

set_option maxRecDepth 16384

noncomputable section

open scoped BigOperators

namespace Cert.KernelIdeal.LogSoftmaxRows

open Cert.KernelIdeal Cert.KernelIdeal.Gen Idealize.ShloMosaic Idealize.ShloMosaic.TcCoe Idealize.ShloMosaic.ValueIdx
open Idealize.SL.Sem Cert.GcnLayers Cert.LibRowReduce Cert.LibColBroadcast
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

/-! ## The body's three steps on a block -/

/-- The block with the bias row added. -/
def biased (x0 : FVec Ideal S2000x40 .f32) (x1 : FVec Ideal S1x40 .f32) : FVec Ideal S2000x40 .f32 :=
  addf (shapeCast S2000x40 x0 shapeCasts_S2000x40_S2000x40)
    (broadcastTo S2000x40 (shapeCast S1x40 x1 shapeCasts_S1x40_S1x40) broadcasts_S1x40_S2000x40)

/-- A block less each row's maximum. -/
def lessRowMax (y : FVec Ideal S2000x40 .f32) : FVec Ideal S2000x40 .f32 :=
  subf y (broadcastTo S2000x40 (shapeCast S2000x1
    (multiReduction .maximumf [1] S2000 y 0xFF800000#32 reduces_S2000x40_S2000 (.inl rfl) rfl) shapeCasts_S2000_S2000x1)
    broadcasts_S2000x1_S2000x40)

/-- The logarithm of each row's sum of exponentials, spread over the row. -/
def logRowSumExp (s : FVec Ideal S2000x40 .f32) : FVec Ideal S2000x40 .f32 :=
  broadcastTo S2000x40 (log (shapeCast S2000x1
    (multiReduction .add [1] S2000 (exp s) 0x00000000#32 reduces_S2000x40_S2000 (.inl rfl) rfl) shapeCasts_S2000_S2000x1))
    broadcasts_S2000x1_S2000x40

/-- The body's stored value is those three steps composed. -/
theorem pay_eq (x0 : FVec Ideal S2000x40 .f32) (x1 : FVec Ideal S1x40 .f32) :
    k2_pay1 (F := Ideal) x0 x1 = subf (lessRowMax (biased x0 x1)) (logRowSumExp (lessRowMax (biased x0 x1))) := rfl

theorem biased_apply (x0 : FVec Ideal S2000x40 .f32) (x1 : FVec Ideal S1x40 .f32) (p : Fin 2000) (k : Fin 40) :
    biased x0 x1 (ix2 p k) = x0 (ix2 p k) + x1 (ix2 (0 : Fin 1) k) := by
  unfold biased
  rw [shapeCast_self, shapeCast_self]
  show x0 (ix2 p k) + broadcastTo S2000x40 x1 broadcasts_S1x40_S2000x40 (ix2 p k) = _
  rw [broadcastTo_1b_ab_apply]

theorem lessRowMax_apply (y : FVec Ideal S2000x40 .f32) (p : Fin 2000) (k : Fin 40) :
    lessRowMax y (ix2 p k) = y (ix2 p k) - rowMax fun j => y (ix2 p j) := by
  unfold lessRowMax
  show y (ix2 p k) - broadcastTo S2000x40 _ broadcasts_S2000x1_S2000x40 (ix2 p k) = _
  rw [broadcastTo_a1_ab_apply, shapeCast_col_apply]
  exact congrArg (y (ix2 p k) - ·) (multiReduction_max_row (R := 2000) (C := 40) y reduces_S2000x40_S2000 (.inl rfl) rfl p)

theorem logRowSumExp_apply (s : FVec Ideal S2000x40 .f32) (p : Fin 2000) (k : Fin 40) :
    logRowSumExp s (ix2 p k) = Ideal.log (∑ j : Fin 40, Ideal.exp (s (ix2 p j))) := by
  unfold logRowSumExp
  rw [broadcastTo_a1_ab_apply]
  show Ideal.log (shapeCast S2000x1 _ shapeCasts_S2000_S2000x1 (ix2 p (0 : Fin 1))) = _
  rw [shapeCast_col_apply]
  exact congrArg Ideal.log (multiReduction_add_row (R := 2000) (C := 40) (exp s) reduces_S2000x40_S2000 (.inl rfl) rfl p)

/-- The body's stored value at entry (p, c), in terms of row p of the block and the bias row. -/
theorem pay_apply (x0 : FVec Ideal S2000x40 .f32) (x1 : FVec Ideal S1x40 .f32) (p : Fin 2000) (c : Fin 40) :
    k2_pay1 (F := Ideal) x0 x1 (ix2 p c)
      = ((x0 (ix2 p c) + x1 (ix2 (0 : Fin 1) c)) - rowMax fun j => x0 (ix2 p j) + x1 (ix2 (0 : Fin 1) j))
        - Ideal.log (∑ k : Fin 40, Ideal.exp ((x0 (ix2 p k) + x1 (ix2 (0 : Fin 1) k))
            - rowMax fun j => x0 (ix2 p j) + x1 (ix2 (0 : Fin 1) j))) := by
  rw [pay_eq]
  show lessRowMax (biased x0 x1) (ix2 p c) - logRowSumExp (lessRowMax (biased x0 x1)) (ix2 p c) = _
  rw [logRowSumExp_apply]
  simp only [lessRowMax_apply, biased_apply]

/-- If row p of the block is row r of the array A and the staged bias row is b, the body's entry (p, c) is the log-softmax
    entry (r, c) of A + b. -/
theorem entry_eq (xb : FVec Ideal S2000x40 .f32) (bb : FVec Ideal S1x40 .f32)
    (A : (⟨2, ![50000, 40]⟩ : Shape).Idx → EReal) (b : Fin 40 → EReal) (p : Fin 2000) (c : Fin 40) (r : Fin 50000) (c' : Fin 40)
    (hc : c' = c) (hrow : ∀ k : Fin 40, xb (ix2 p k) = A (ix2 r k)) (hb : ∀ k : Fin 40, bb (ix2 (0 : Fin 1) k) = b k) :
    k2_pay1 (F := Ideal) xb bb (ix2 p c) = logSoftmaxEntry A b r c' := by
  subst hc
  rw [pay_apply]
  unfold logSoftmaxEntry shifted logit
  simp only [hrow, hb]

/-! ## From blocks to the array -/

/-- The index maps over the 25 points: the row windows sit at block row t, the bias at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, k) of the block of A at point t is A[2000·t + p, k]. -/
theorem read_rows (c : Dev nD) (t : Fin cfg2.N) (p : Fin 2000) (k : Fin 40) (i : S50000x40.Idx)
    (h0 : (i 0).val = t.val * 2000 + p.val) (h1 : (i 1).val = k.val) :
    iblk2 V c 0 t (ix2 p k) = V c main_v59 i := by
  obtain ⟨e0, e1, -⟩ := idx_facts t
  show V c main_v59 (((cfg2.win 0).blk t).view.emb (ix2 p k)) = V c main_v59 i
  refine congrArg (V c main_v59) (funext fun a => Fin.ext ?_)
  match a with
  | ⟨0, _⟩ => show win2_0.index t (0 : Fin 2) * 2000 + 1 * p.val = (i 0).val; omega
  | ⟨1, _⟩ => show win2_0.index t (1 : Fin 2) * 40 + 1 * k.val = (i 1).val; omega

/-- Entry (0, k) of the staged bias row is the bias array's (0, k) at every point. -/
theorem read_bias (c : Dev nD) (t : Fin cfg2.N) (k : Fin 40) :
    iblk2 V c 1 t (ix2 (0 : Fin 1) k) = V c main_v60 (ix2 (0 : Fin 1) k) := by
  obtain ⟨-, -, e2, e3, -⟩ := idx_facts t
  show V c main_v60 (((cfg2.win 1).blk t).view.emb (ix2 (0 : Fin 1) k)) = V c main_v60 (ix2 (0 : Fin 1) k)
  refine congrArg (V c main_v60) (funext fun a => Fin.ext ?_)
  match a with
  | ⟨0, _⟩ => show win2_1.index t (0 : Fin 2) * 1 + 1 * 0 = 0; omega
  | ⟨1, _⟩ => show win2_1.index t (1 : Fin 2) * 40 + 1 * k.val = k.val; omega

/-- What point t writes back is block t of the log-softmax of A + b₂. -/
theorem flushed_eq (c : Dev nD) (t : Fin cfg2.N) :
    (dat2 V c).flushed 2 t
      = ((cfg2.win 2).blk t).view.read (Elt Ideal)
          (logSoftmaxArr (R := 50000) (C := 40) (V c main_v59) (fun k => V c main_v60 (ix2 (0 : Fin 1) k))) := by
  show (cfg2.win 2).cut (grid2.coords t) ((dat2 V c).after 2 t) = _
  rw [after2_2]
  unfold out2_2
  rw [View.canon_unit_zero off_zero]
  simp only [View.ld_unit_zero (S := S2000x40) off_zero, View.ld_unit_zero (S := S1x40) off_zero]
  obtain ⟨-, -, -, -, e4, e5⟩ := idx_facts t
  funext j
  obtain ⟨p, q, rfl⟩ : ∃ (p : Fin 2000) (q : Fin 40), j = ix2 p q := ⟨j 0, j 1, eq_ix2 j⟩
  have hr : ((((cfg2.win 2).blk t).view.emb (ix2 p q)) 0).val = t.val * 2000 + p.val := by
    show win2_2.index t (0 : Fin 2) * 2000 + 1 * p.val = _; omega
  have hq : ((((cfg2.win 2).blk t).view.emb (ix2 p q)) 1).val = q.val := by
    show win2_2.index t (1 : Fin 2) * 40 + 1 * q.val = _; omega
  show k2_pay1 (iblk2 V c 0 t) (iblk2 V c 1 t) (ix2 p q)
    = logSoftmaxEntry (R := 50000) (C := 40) (V c main_v59) (fun k => V c main_v60 (ix2 (0 : Fin 1) k))
        ((((cfg2.win 2).blk t).view.emb (ix2 p q)) 0) ((((cfg2.win 2).blk t).view.emb (ix2 p q)) 1)
  exact entry_eq (iblk2 V c 0 t) (iblk2 V c 1 t) (V c main_v59) (fun k => V c main_v60 (ix2 (0 : Fin 1) k)) p q
    ((((cfg2.win 2).blk t).view.emb (ix2 p q)) 0) ((((cfg2.win 2).blk t).view.emb (ix2 p q)) 1) (Fin.ext hq)
    (fun k => read_rows V c t p k (ix2 ((((cfg2.win 2).blk t).view.emb (ix2 p q)) 0) k) hr rfl)
    (fun k => read_bias V c t k)

/-- An index is in point t's output block iff each coordinate is in the block's range on its axis. -/
theorem mem_blk (t : Fin cfg2.N) (i : S50000x40.Idx) :
    i ∈ ((cfg2.win 2).blk t).view.set ↔ ∀ a : Fin 2, win2_2.index t a * S2000x40.size a ≤ (i a).val
      ∧ (i a).val < win2_2.index t a * S2000x40.size a + S2000x40.size a := by
  show i ∈ ((View.whole main_v61).slice (win2_2.rect t)).set ↔ _
  rw [View.set_slice_whole, Rect.mem_set_unit]
  exact Iff.rfl

/-- Row r lies in the block of point r / 2000: the 25 blocks tile the array. -/
theorem cover (i : S50000x40.Idx) :
    ∃ t : Fin cfg2.N, (cfg2.win 2).flush t = true ∧ i ∈ ((cfg2.win 2).blk t).view.set := by
  have h0 : (i 0).val < 50000 := (i 0).isLt
  have h1 : (i 1).val < 40 := (i 1).isLt
  have hN : cfg2.N = 25 := N_2
  refine ⟨⟨(i 0).val / 2000, by rw [hN]; omega⟩, flush2_2 _, ?_⟩
  obtain ⟨-, -, -, -, e4, e5⟩ := idx_facts ⟨(i 0).val / 2000, by rw [hN]; omega⟩
  rw [mem_blk]
  intro a
  match a with
  | ⟨0, _⟩ =>
    show win2_2.index _ (0 : Fin 2) * 2000 ≤ (i 0).val ∧ (i 0).val < win2_2.index _ (0 : Fin 2) * 2000 + 2000
    rw [e4]; show (i 0).val / 2000 * 2000 ≤ (i 0).val ∧ (i 0).val < (i 0).val / 2000 * 2000 + 2000; omega
  | ⟨1, _⟩ =>
    show win2_2.index _ (1 : Fin 2) * 40 ≤ (i 1).val ∧ (i 1).val < win2_2.index _ (1 : Fin 2) * 40 + 40
    rw [e5]; omega

/-- The region's output array ends holding the log-softmax of A + b₂ of the arrays the region found. -/
theorem final (c : Dev nD) :
    (dat2 V c).arrAt 2 cfg2.N
      = logSoftmaxArr (R := 50000) (C := 40) (V c main_v59) (fun k => V c main_v60 (ix2 (0 : Fin 1) k)) :=
  (dat2 V c).arrAt_eq_of_cover 2 _ (fun t _ => flushed_eq V c t) cover

end Cert.KernelIdeal.LogSoftmaxRows

end
-- ==== Proof.HostStages.lean ====
/-
  The kernel program's host stretches, read buffer by buffer.

  Around its three pallas_calls the kernel's @main runs the same graph operations as the reference, in three stretches:
    * before the first call: from the edge list, the source column, the destination column and the edge weights
      (the degree count, its inverse square root, the two gathers of it and their product);
    * between the first and second calls: the rows of the first product gathered by source, scaled by the weights and
      summed per destination, and the first bias recast as a row [1, 128];
    * between the second and third calls: the same aggregation of the second product, and the second bias as a row [1, 40].
  Each stretch is stated over an arbitrary incoming valuation `W`: what it writes, as the reference's own stage functions
  of what it reads (the two programs print these operations identically), and the buffers it leaves alone.
-/
import proofs.«175116_j48206712930320_1_alg».proof.Proof.Gen.KernelIdeal.Launch
import proofs.«175116_j48206712930320_1_alg».proof.Proof.RefRead
import Idealize.ShloMosaic.Lib.StableHlo.Run

set_option maxRecDepth 16384

noncomputable section

namespace Cert.KernelIdeal.HostStages

open Cert.KernelIdeal Cert.KernelIdeal.Gen
open Idealize.ShloMosaic Idealize.ShloMosaic.TcCoe Idealize.SL.Sem Idealize.ShloMosaic.StableHlo

variable {F : FTy → Type} [FloatOps F]

/-- Spell the stretch's operation list out, then read the buffer through it. -/
local macro "host_read" : tactic =>
  `(tactic| (simp only [hostOps0, hostOps0_1, hostOps0_2, hostOps1, hostOps2, List.cons_append, List.nil_append]; after_results))

variable (W : Valuation τ sig (Elt F))

/-! ## Before the first call -/

theorem pre_src : after (hostOps0 ++ (hostOps0_1 ++ hostOps0_2)) W (Proc.devRef .tc main_v3)
    = Cert.ReferenceIdeal.ReadP.val_main_v3 (F := F) (W (Proc.devRef .tc main_arg1)) := by host_read; rfl
theorem pre_dst : after (hostOps0 ++ (hostOps0_1 ++ hostOps0_2)) W (Proc.devRef .tc main_v6)
    = Cert.ReferenceIdeal.ReadP.val_main_v6 (F := F) (W (Proc.devRef .tc main_arg1)) := by host_read; rfl
set_option maxHeartbeats 8000000 in
theorem pre_wgt : after (hostOps0 ++ (hostOps0_1 ++ hostOps0_2)) W (Proc.devRef .tc main_v30)
    = Cert.ReferenceIdeal.ReadP.val_main_v30 (F := F) (W (Proc.devRef .tc main_arg1)) := by host_read; rfl
theorem pre_arg0 : after (hostOps0 ++ (hostOps0_1 ++ hostOps0_2)) W (Proc.devRef .tc main_arg0) = W (Proc.devRef .tc main_arg0) := by host_read
theorem pre_arg2 : after (hostOps0 ++ (hostOps0_1 ++ hostOps0_2)) W (Proc.devRef .tc main_arg2) = W (Proc.devRef .tc main_arg2) := by host_read
theorem pre_arg3 : after (hostOps0 ++ (hostOps0_1 ++ hostOps0_2)) W (Proc.devRef .tc main_arg3) = W (Proc.devRef .tc main_arg3) := by host_read
theorem pre_arg4 : after (hostOps0 ++ (hostOps0_1 ++ hostOps0_2)) W (Proc.devRef .tc main_arg4) = W (Proc.devRef .tc main_arg4) := by host_read
theorem pre_arg5 : after (hostOps0 ++ (hostOps0_1 ++ hostOps0_2)) W (Proc.devRef .tc main_arg5) = W (Proc.devRef .tc main_arg5) := by host_read

/-! ## Between the first and second calls -/

set_option maxHeartbeats 8000000 in
theorem mid1_agg (x0 : (⟨S50000x128, .f32⟩ : BufTy).Contents (Elt F)) (x1 : (⟨S2x800000, .i32⟩ : BufTy).Contents (Elt F))
    (x2 : (⟨S128x128, .f32⟩ : BufTy).Contents (Elt F))
    (hp : W (Proc.devRef .tc main_v31) = Cert.ReferenceIdeal.ReadP.val_main_v31 (F := F) x0 x2)
    (hs : W (Proc.devRef .tc main_v3) = Cert.ReferenceIdeal.ReadP.val_main_v3 (F := F) x1) (hd : W (Proc.devRef .tc main_v6) = Cert.ReferenceIdeal.ReadP.val_main_v6 (F := F) x1)
    (hw : W (Proc.devRef .tc main_v30) = Cert.ReferenceIdeal.ReadP.val_main_v30 (F := F) x1) :
    after hostOps1 W (Proc.devRef .tc main_v44) = Cert.ReferenceIdeal.ReadP.val_main_v44 (F := F) x0 x1 x2 := by
  host_read; rw [hp, hs, hd, hw]; rfl
theorem mid1_bias : after hostOps1 W (Proc.devRef .tc main_v45)
    = shapeCast S1x128 (W (Proc.devRef .tc main_arg3)) shapeCasts_S128_S1x128 := by host_read; rfl
theorem mid1_src : after hostOps1 W (Proc.devRef .tc main_v3) = W (Proc.devRef .tc main_v3) := by host_read
theorem mid1_dst : after hostOps1 W (Proc.devRef .tc main_v6) = W (Proc.devRef .tc main_v6) := by host_read
theorem mid1_wgt : after hostOps1 W (Proc.devRef .tc main_v30) = W (Proc.devRef .tc main_v30) := by host_read
theorem mid1_arg4 : after hostOps1 W (Proc.devRef .tc main_arg4) = W (Proc.devRef .tc main_arg4) := by host_read
theorem mid1_arg5 : after hostOps1 W (Proc.devRef .tc main_arg5) = W (Proc.devRef .tc main_arg5) := by host_read

/-! ## Between the second and third calls -/

set_option maxHeartbeats 8000000 in
theorem mid2_agg (x0 : (⟨S50000x128, .f32⟩ : BufTy).Contents (Elt F)) (x1 : (⟨S2x800000, .i32⟩ : BufTy).Contents (Elt F))
    (x2 : (⟨S128x128, .f32⟩ : BufTy).Contents (Elt F)) (x3 : (⟨S128, .f32⟩ : BufTy).Contents (Elt F))
    (x4 : (⟨S128x40, .f32⟩ : BufTy).Contents (Elt F))
    (hp : W (Proc.devRef .tc main_v46) = Cert.ReferenceIdeal.ReadP.val_main_v49 (F := F) x0 x1 x2 x3 x4)
    (hs : W (Proc.devRef .tc main_v3) = Cert.ReferenceIdeal.ReadP.val_main_v3 (F := F) x1) (hd : W (Proc.devRef .tc main_v6) = Cert.ReferenceIdeal.ReadP.val_main_v6 (F := F) x1)
    (hw : W (Proc.devRef .tc main_v30) = Cert.ReferenceIdeal.ReadP.val_main_v30 (F := F) x1) :
    after hostOps2 W (Proc.devRef .tc main_v59) = Cert.ReferenceIdeal.ReadP.val_main_v62 (F := F) x0 x1 x2 x3 x4 := by
  host_read; rw [hp, hs, hd, hw]; rfl
theorem mid2_bias : after hostOps2 W (Proc.devRef .tc main_v60)
    = shapeCast S1x40 (W (Proc.devRef .tc main_arg5)) shapeCasts_S40_S1x40 := by host_read; rfl

end Cert.KernelIdeal.HostStages

end
-- ==== Proof.RefLayers.lean ====
/-
  The reference's three dense stages are the layer functions.

  Read at an index, the reference's operations between its aggregations are: a `dot_general` (a sum over the contracted
  axis); a bias broadcast, an addition and a maximum with the zero splat feeding a second `dot_general`; and jax's
  `log_softmax` — a row maximum from −∞ (taken once more against a −∞ splat, which changes nothing), a subtraction, an
  exponential, a row sum from zero, a logarithm, a subtraction. Entry by entry these are the layer functions of
  Layers.lean applied to the stage before.
-/
import proofs.«175116_j48206712930320_1_alg».proof.Proof.RefRead
import proofs.«175116_j48206712930320_1_alg».proof.Proof.Layers
import proofs.«175116_j48206712930320_1_alg».proof.Proof.LibRowReduce
import Idealize.ShloMosaic.Lib.ValueIdx
import Idealize.ShloMosaic.PureOps.Ideal.Laws

set_option maxRecDepth 16384

noncomputable section

open scoped BigOperators

namespace Cert.ReferenceIdeal.RefLayers

open Cert.ReferenceIdeal Cert.ReferenceIdeal.Gen Cert.ReferenceIdeal.ReadP
open Idealize.ShloMosaic Idealize.ShloMosaic.TcCoe Idealize.ShloMosaic.ValueIdx Cert.GcnLayers Cert.LibRowReduce

variable (x0 : (⟨S50000x128, .f32⟩ : BufTy).Contents (Elt Ideal)) (x1 : (⟨S2x800000, .i32⟩ : BufTy).Contents (Elt Ideal)) (x2 : (⟨S128x128, .f32⟩ : BufTy).Contents (Elt Ideal))
  (x3 : (⟨S128, .f32⟩ : BufTy).Contents (Elt Ideal)) (x4 : (⟨S128x40, .f32⟩ : BufTy).Contents (Elt Ideal)) (x5 : (⟨S40, .f32⟩ : BufTy).Contents (Elt Ideal))

/-- The first `dot_general` is X · W₁. -/
theorem prod_eq : val_main_v31 (F := Ideal) x0 x2 = prodArr (R := 50000) (K := 128) (N := 128) x0 x2 := by
  funext i
  obtain ⟨p, q, rfl⟩ : ∃ (p : Fin 50000) (q : Fin 128), i = ix2 p q := ⟨i 0, i 1, eq_ix2 i⟩
  rw [val_main_v31_apply]
  unfold prodArr prodEntry
  refine Finset.sum_congr rfl fun k _ => ?_
  have el : lidx_main_v31 (ix2 p q) k = ix2 p k := funext fun a => Fin.ext (by match a with | ⟨0, _⟩ => rfl | ⟨1, _⟩ => rfl)
  have er : ridx_main_v31 (ix2 p q) k = ix2 k q := funext fun a => Fin.ext (by match a with | ⟨0, _⟩ => rfl | ⟨1, _⟩ => rfl)
  rw [el, er]

/-- The rectified, biased aggregate at entry (p, k). -/
theorem relu_apply (p : Fin 50000) (k : Fin 128) :
    val_main_v48 (F := Ideal) x0 x1 x2 x3 (ix2 p k)
      = Cert.GcnLayers.hidden (R := 50000) (K := 128) (val_main_v44 (F := Ideal) x0 x1 x2) (fun k => x3 (ix1 k)) p k := by
  have e3 : idx_main_v45 (idx_main_v46 (ix2 p k)) = ix1 k := funext fun a => Fin.ext (by match a with | ⟨0, _⟩ => rfl)
  rw [val_main_v48_apply, val_main_v47_apply, val_main_v46_apply, val_main_v45_apply, val_main_call1_v0_apply,
    val_main_call1_cst_apply, e3]
  unfold Cert.GcnLayers.hidden
  simp only [Ideal.maximumf_def, Ideal.addf_def, Ideal.ofBits_def, Ideal.ofBits_zero_f32]

/-- The second `dot_general` is relu(A + b₁) · W₂ of the first aggregate A. -/
theorem reluProd_eq :
    val_main_v49 (F := Ideal) x0 x1 x2 x3 x4
      = reluProdArr (R := 50000) (K := 128) (N := 40) (val_main_v44 (F := Ideal) x0 x1 x2) (fun k => x3 (ix1 k)) x4 := by
  funext i
  obtain ⟨p, q, rfl⟩ : ∃ (p : Fin 50000) (q : Fin 40), i = ix2 p q := ⟨i 0, i 1, eq_ix2 i⟩
  rw [val_main_v49_apply]
  unfold reluProdArr reluProdEntry
  refine Finset.sum_congr rfl fun k _ => ?_
  have el : lidx_main_v49 (ix2 p q) k = ix2 p k := funext fun a => Fin.ext (by match a with | ⟨0, _⟩ => rfl | ⟨1, _⟩ => rfl)
  have er : ridx_main_v49 (ix2 p q) k = ix2 k q := funext fun a => Fin.ext (by match a with | ⟨0, _⟩ => rfl | ⟨1, _⟩ => rfl)
  rw [el, er, relu_apply]

/-- The biased logit at entry (p, c). -/
theorem logit_apply (p : Fin 50000) (c : Fin 40) :
    val_main_v65 (F := Ideal) x0 x1 x2 x3 x4 x5 (ix2 p c)
      = logit (R := 50000) (C := 40) (val_main_v62 (F := Ideal) x0 x1 x2 x3 x4) (fun k => x5 (ix1 k)) p c := by
  have e : idx_main_v63 (idx_main_v64 (ix2 p c)) = ix1 c := funext fun a => Fin.ext (by match a with | ⟨0, _⟩ => rfl)
  rw [val_main_v65_apply, val_main_v64_apply, val_main_v63_apply, e]
  unfold logit
  simp only [Ideal.addf_def]

/-- The row maximum, taken once more against −∞. -/
theorem rowMax_apply (p : Fin 50000) :
    val_main_call2_v2 (F := Ideal) x0 x1 x2 x3 x4 x5 (ix1 p)
      = rowMax fun k => logit (R := 50000) (C := 40) (val_main_v62 (F := Ideal) x0 x1 x2 x3 x4) (fun k => x5 (ix1 k)) p k := by
  rw [val_main_call2_v2_apply, val_main_call2_v1_apply, val_main_call2_cst_0_apply]
  unfold val_main_call2_v0
  rw [hostReduce_max_row (R := 50000) (C := 40) (val_main_v65 (F := Ideal) x0 x1 x2 x3 x4 x5) (val_main_call2_cst (F := Ideal))
    (fun _ => rfl) reducesTo_S50000x40_S50000_d1 (by decide) h_S_ p]
  simp only [Ideal.maximumf_def, Ideal.ofBits_def, max_negInf]
  exact congrArg rowMax (funext fun k => logit_apply x0 x1 x2 x3 x4 x5 p k)

/-- The shifted logit at entry (p, c). -/
theorem shifted_apply (p : Fin 50000) (c : Fin 40) :
    val_main_call2_v5 (F := Ideal) x0 x1 x2 x3 x4 x5 (ix2 p c)
      = shifted (R := 50000) (C := 40) (val_main_v62 (F := Ideal) x0 x1 x2 x3 x4) (fun k => x5 (ix1 k)) p c := by
  have e : idx_main_call2_v3 (idx_main_call2_v4 (ix2 p c)) = ix1 p := funext fun a => Fin.ext (by match a with | ⟨0, _⟩ => rfl)
  rw [val_main_call2_v5_apply, val_main_call2_v4_apply, val_main_call2_v3_apply, e, rowMax_apply, logit_apply]
  unfold shifted
  simp only [Ideal.subf_def]

/-- The logarithm of the row's sum of exponentials. -/
theorem logSum_apply (p : Fin 50000) (c : Fin 40) :
    val_main_call2_v10 (F := Ideal) x0 x1 x2 x3 x4 x5 (ix2 p c)
      = Ideal.log (∑ k : Fin 40, Ideal.exp (shifted (R := 50000) (C := 40) (val_main_v62 (F := Ideal) x0 x1 x2 x3 x4) (fun k => x5 (ix1 k)) p k)) := by
  have e : idx_main_call2_v8 (idx_main_call2_v10 (ix2 p c)) = ix1 p := funext fun a => Fin.ext (by match a with | ⟨0, _⟩ => rfl)
  rw [val_main_call2_v10_apply, val_main_call2_v9_apply, val_main_call2_v8_apply, e, val_main_call2_v7_apply, val_main_call2_cst_1_apply]
  simp only [Ideal.hostUnary_log_def, Ideal.ofBits_def, Ideal.ofBits_zero_f32, zero_add]
  refine congrArg Ideal.log (Finset.sum_congr rfl fun k _ => ?_)
  have ek : idx_main_call2_v7 (ix1 p) k = ix2 p k := funext fun a => Fin.ext (by match a with | ⟨0, _⟩ => rfl | ⟨1, _⟩ => rfl)
  rw [ek, val_main_call2_v6_apply, shifted_apply]
  simp only [Ideal.hostUnary_exp_def]

/-- The reference's result is the log-softmax of A + b₂ of the second aggregate A. -/
theorem logSoftmax_eq :
    val_main_v66 (F := Ideal) x0 x1 x2 x3 x4 x5
      = logSoftmaxArr (R := 50000) (C := 40) (val_main_v62 (F := Ideal) x0 x1 x2 x3 x4) (fun k => x5 (ix1 k)) := by
  funext i
  obtain ⟨p, c, rfl⟩ : ∃ (p : Fin 50000) (c : Fin 40), i = ix2 p c := ⟨i 0, i 1, eq_ix2 i⟩
  rw [val_main_v66_apply, shifted_apply, logSum_apply]
  unfold logSoftmaxArr logSoftmaxEntry
  simp only [Ideal.subf_def]

end Cert.ReferenceIdeal.RefLayers

end
-- ==== Proof.ValueRun.lean ====
/-
  The kernel program's result buffer, as the reference's last stage function of the arguments.

  The generated frame of this three-call program names the buffers' contents at every boundary of @main: `W3` where the
  first call is entered, `W4` where it is left (its output array at what the 25 write-backs leave, every other buffer as
  entered), `W5` after the next stretch of host operations, and so on to `W8` at the return. Walking that chain:
    * at `W3` the source and destination columns and the edge weights are the reference's stage functions of the edge list;
    * the first call leaves X · W₁ in its output (ProductRows), which is the reference's first `dot_general`;
    * the stretch after it aggregates that product exactly as the reference does, and recasts the bias [128] as a row [1, 128]
      (the reference broadcasts it instead; read at (0, k) both are b₁[k]);
    * the second call leaves relu(A + b₁) · W₂ (ReluProductRows), the reference's second `dot_general` of the same operands;
    * the next stretch aggregates again; the third call leaves the log-softmax of A + b₂ (LogSoftmaxRows), which is what jax's
      `log_softmax` computes on the same array.
  The run itself is the regions launch of the generated frame with the result buffer read off `W8` beside the arguments.
-/
import proofs.«175116_j48206712930320_1_alg».proof.Proof.Gen.KernelIdeal.Frame
import proofs.«175116_j48206712930320_1_alg».proof.Proof.ProductRows
import proofs.«175116_j48206712930320_1_alg».proof.Proof.ReluProductRows
import proofs.«175116_j48206712930320_1_alg».proof.Proof.LogSoftmaxRows
import proofs.«175116_j48206712930320_1_alg».proof.Proof.HostStages
import proofs.«175116_j48206712930320_1_alg».proof.Proof.RefLayers
import Idealize.ShloMosaic.Lib.ValueLayout

set_option maxRecDepth 16384

noncomputable section

namespace Cert.KernelIdeal.ValueRun

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GcnLayers

/-! ## The run, with the result buffer read at the return -/

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v61) = W8 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v61 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

/-- The first call is entered after the three stretches before it, run as one line. -/
theorem W3_eq (c : Dev nD) :
    W3 m ρ c = StableHlo.after (hostOps0 ++ (hostOps0_1 ++ hostOps0_2)) (W0 m ρ c) := by
  rw [StableHlo.after_append, StableHlo.after_append]

end Run

/-! ## The boundary contents, from the launch memory to the return -/

section Chain

variable (m : (ℓ : Loc nD τ sig) → Buf (Elt Ideal) ℓ) (ρ : Dev nD → PrngReg) (c : Dev nD)

/-! ### Where the first call is entered -/

theorem in1_src : W3 m ρ c (Proc.devRef .tc main_v3) = Cert.ReferenceIdeal.ReadP.val_main_v3 (F := Ideal) (m ((c : Thread nD τ).loc main_arg1)) :=
  (congrFun (W3_eq m ρ c) _).trans (HostStages.pre_src (W0 m ρ c))
theorem in1_dst : W3 m ρ c (Proc.devRef .tc main_v6) = Cert.ReferenceIdeal.ReadP.val_main_v6 (F := Ideal) (m ((c : Thread nD τ).loc main_arg1)) :=
  (congrFun (W3_eq m ρ c) _).trans (HostStages.pre_dst (W0 m ρ c))
theorem in1_wgt : W3 m ρ c (Proc.devRef .tc main_v30) = Cert.ReferenceIdeal.ReadP.val_main_v30 (F := Ideal) (m ((c : Thread nD τ).loc main_arg1)) :=
  (congrFun (W3_eq m ρ c) _).trans (HostStages.pre_wgt (W0 m ρ c))
theorem in1_arg0 : W3 m ρ c (Proc.devRef .tc main_arg0) = (m ((c : Thread nD τ).loc main_arg0)) :=
  (congrFun (W3_eq m ρ c) _).trans (HostStages.pre_arg0 (W0 m ρ c))
theorem in1_arg2 : W3 m ρ c (Proc.devRef .tc main_arg2) = (m ((c : Thread nD τ).loc main_arg2)) :=
  (congrFun (W3_eq m ρ c) _).trans (HostStages.pre_arg2 (W0 m ρ c))
theorem in1_arg3 : W3 m ρ c (Proc.devRef .tc main_arg3) = (m ((c : Thread nD τ).loc main_arg3)) :=
  (congrFun (W3_eq m ρ c) _).trans (HostStages.pre_arg3 (W0 m ρ c))
theorem in1_arg4 : W3 m ρ c (Proc.devRef .tc main_arg4) = (m ((c : Thread nD τ).loc main_arg4)) :=
  (congrFun (W3_eq m ρ c) _).trans (HostStages.pre_arg4 (W0 m ρ c))
theorem in1_arg5 : W3 m ρ c (Proc.devRef .tc main_arg5) = (m ((c : Thread nD τ).loc main_arg5)) :=
  (congrFun (W3_eq m ρ c) _).trans (HostStages.pre_arg5 (W0 m ρ c))

/-! ### Where the first call is left -/

theorem out1_prod : W4 m ρ c (Proc.devRef .tc main_v31)
    = Cert.ReferenceIdeal.ReadP.val_main_v31 (F := Ideal) (m ((c : Thread nD τ).loc main_arg0)) (m ((c : Thread nD τ).loc main_arg2)) := by
  refine (W4_arr m ρ c 2).trans ((ProductRows.final (V3 m ρ) c).trans ?_)
  show prodArr (R := 50000) (K := 128) (N := 128) (W3 m ρ c (Proc.devRef .tc main_arg0)) (W3 m ρ c (Proc.devRef .tc main_arg2)) = _
  rw [in1_arg0, in1_arg2]
  exact (Cert.ReferenceIdeal.RefLayers.prod_eq _ _).symm
theorem out1_src : W4 m ρ c (Proc.devRef .tc main_v3) = Cert.ReferenceIdeal.ReadP.val_main_v3 (F := Ideal) (m ((c : Thread nD τ).loc main_arg1)) :=
  (W4_of_ne m ρ c main_v3 (by decide)).trans (in1_src m ρ c)
theorem out1_dst : W4 m ρ c (Proc.devRef .tc main_v6) = Cert.ReferenceIdeal.ReadP.val_main_v6 (F := Ideal) (m ((c : Thread nD τ).loc main_arg1)) :=
  (W4_of_ne m ρ c main_v6 (by decide)).trans (in1_dst m ρ c)
theorem out1_wgt : W4 m ρ c (Proc.devRef .tc main_v30) = Cert.ReferenceIdeal.ReadP.val_main_v30 (F := Ideal) (m ((c : Thread nD τ).loc main_arg1)) :=
  (W4_of_ne m ρ c main_v30 (by decide)).trans (in1_wgt m ρ c)
theorem out1_arg3 : W4 m ρ c (Proc.devRef .tc main_arg3) = (m ((c : Thread nD τ).loc main_arg3)) :=
  (W4_of_ne m ρ c main_arg3 (by decide)).trans (in1_arg3 m ρ c)
theorem out1_arg4 : W4 m ρ c (Proc.devRef .tc main_arg4) = (m ((c : Thread nD τ).loc main_arg4)) :=
  (W4_of_ne m ρ c main_arg4 (by decide)).trans (in1_arg4 m ρ c)
theorem out1_arg5 : W4 m ρ c (Proc.devRef .tc main_arg5) = (m ((c : Thread nD τ).loc main_arg5)) :=
  (W4_of_ne m ρ c main_arg5 (by decide)).trans (in1_arg5 m ρ c)

/-! ### Where the second call is entered -/

theorem in2_agg : W5 m ρ c (Proc.devRef .tc main_v44)
    = Cert.ReferenceIdeal.ReadP.val_main_v44 (F := Ideal) (m ((c : Thread nD τ).loc main_arg0)) (m ((c : Thread nD τ).loc main_arg1)) (m ((c : Thread nD τ).loc main_arg2)) :=
  HostStages.mid1_agg (W4 m ρ c) _ _ _ (out1_prod m ρ c) (out1_src m ρ c) (out1_dst m ρ c) (out1_wgt m ρ c)
theorem in2_bias (k : Fin 128) : W5 m ρ c (Proc.devRef .tc main_v45) (ix2 (0 : Fin 1) k) = (m ((c : Thread nD τ).loc main_arg3)) (ix1 k) := by
  refine (congrFun (HostStages.mid1_bias (W4 m ρ c)) _).trans ?_
  rw [out1_arg3]
  exact shapeCast_a_1a_apply _ _ 0 k
theorem in2_src : W5 m ρ c (Proc.devRef .tc main_v3) = Cert.ReferenceIdeal.ReadP.val_main_v3 (F := Ideal) (m ((c : Thread nD τ).loc main_arg1)) :=
  (HostStages.mid1_src (W4 m ρ c)).trans (out1_src m ρ c)
theorem in2_dst : W5 m ρ c (Proc.devRef .tc main_v6) = Cert.ReferenceIdeal.ReadP.val_main_v6 (F := Ideal) (m ((c : Thread nD τ).loc main_arg1)) :=
  (HostStages.mid1_dst (W4 m ρ c)).trans (out1_dst m ρ c)
theorem in2_wgt : W5 m ρ c (Proc.devRef .tc main_v30) = Cert.ReferenceIdeal.ReadP.val_main_v30 (F := Ideal) (m ((c : Thread nD τ).loc main_arg1)) :=
  (HostStages.mid1_wgt (W4 m ρ c)).trans (out1_wgt m ρ c)
theorem in2_arg4 : W5 m ρ c (Proc.devRef .tc main_arg4) = (m ((c : Thread nD τ).loc main_arg4)) :=
  (HostStages.mid1_arg4 (W4 m ρ c)).trans (out1_arg4 m ρ c)
theorem in2_arg5 : W5 m ρ c (Proc.devRef .tc main_arg5) = (m ((c : Thread nD τ).loc main_arg5)) :=
  (HostStages.mid1_arg5 (W4 m ρ c)).trans (out1_arg5 m ρ c)

/-! ### Where the second call is left -/

theorem out2_prod : W6 m ρ c (Proc.devRef .tc main_v46)
    = Cert.ReferenceIdeal.ReadP.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 3).trans ((ReluProductRows.final (V5 m ρ) c).trans ?_)
  show reluProdArr (R := 50000) (K := 128) (N := 40) (W5 m ρ c (Proc.devRef .tc main_v44))
    (fun k => W5 m ρ c (Proc.devRef .tc main_v45) (ix2 (0 : Fin 1) k)) (W5 m ρ c (Proc.devRef .tc main_arg4)) = _
  rw [in2_agg, in2_arg4, show (fun k : Fin 128 => W5 m ρ c (Proc.devRef .tc main_v45) (ix2 (0 : Fin 1) k))
    = fun k => (m ((c : Thread nD τ).loc main_arg3)) (ix1 k) from funext fun k => in2_bias m ρ c k]
  exact (Cert.ReferenceIdeal.RefLayers.reluProd_eq _ _ _ _ _).symm
theorem out2_src : W6 m ρ c (Proc.devRef .tc main_v3) = Cert.ReferenceIdeal.ReadP.val_main_v3 (F := Ideal) (m ((c : Thread nD τ).loc main_arg1)) :=
  (W6_of_ne m ρ c main_v3 (by decide)).trans (in2_src m ρ c)
theorem out2_dst : W6 m ρ c (Proc.devRef .tc main_v6) = Cert.ReferenceIdeal.ReadP.val_main_v6 (F := Ideal) (m ((c : Thread nD τ).loc main_arg1)) :=
  (W6_of_ne m ρ c main_v6 (by decide)).trans (in2_dst m ρ c)
theorem out2_wgt : W6 m ρ c (Proc.devRef .tc main_v30) = Cert.ReferenceIdeal.ReadP.val_main_v30 (F := Ideal) (m ((c : Thread nD τ).loc main_arg1)) :=
  (W6_of_ne m ρ c main_v30 (by decide)).trans (in2_wgt m ρ c)
theorem out2_arg5 : W6 m ρ c (Proc.devRef .tc main_arg5) = (m ((c : Thread nD τ).loc main_arg5)) :=
  (W6_of_ne m ρ c main_arg5 (by decide)).trans (in2_arg5 m ρ c)

/-! ### Where the third call is entered, and the return -/

theorem in3_agg : W7 m ρ c (Proc.devRef .tc main_v59)
    = Cert.ReferenceIdeal.ReadP.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  HostStages.mid2_agg (W6 m ρ c) _ _ _ _ _ (out2_prod m ρ c) (out2_src m ρ c) (out2_dst m ρ c) (out2_wgt m ρ c)
theorem in3_bias (k : Fin 40) : W7 m ρ c (Proc.devRef .tc main_v60) (ix2 (0 : Fin 1) k) = (m ((c : Thread nD τ).loc main_arg5)) (ix1 k) := by
  refine (congrFun (HostStages.mid2_bias (W6 m ρ c)) _).trans ?_
  rw [out2_arg5]
  exact shapeCast_a_1a_apply _ _ 0 k

/-- The result buffer at the return is the reference's last stage function of the launch contents of the arguments. -/
theorem result_eq : W8 m ρ c (Proc.devRef .tc main_v61)
    = Cert.ReferenceIdeal.ReadP.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 2).trans ((LogSoftmaxRows.final (V7 m ρ) c).trans ?_)
  show logSoftmaxArr (R := 50000) (C := 40) (W7 m ρ c (Proc.devRef .tc main_v59))
    (fun k => W7 m ρ c (Proc.devRef .tc main_v60) (ix2 (0 : Fin 1) k)) = _
  rw [in3_agg, show (fun k : Fin 40 => W7 m ρ c (Proc.devRef .tc main_v60) (ix2 (0 : Fin 1) k))
    = fun k => (m ((c : Thread nD τ).loc main_arg5)) (ix1 k) from funext fun k => in3_bias m ρ c k]
  exact (Cert.ReferenceIdeal.RefLayers.logSoftmax_eq _ _ _ _ _ _).symm

end Chain

end Cert.KernelIdeal.ValueRun

end
-- ==== Proof.lean ====
/-
  The certificate of a two-layer graph convolution network (GCNConv, relu, GCNConv, log_softmax) on 50000 nodes and
  800000 edges: a program that runs its three dense stages as Pallas kernels over blocks of 2000 rows — X · W₁;
  relu(A + b₁) · W₂; the row-wise log-softmax of A + b₂ — with the graph aggregations between them on the host,
  against a jnp reference that computes the same network with whole-array operations.

  The two programs print the graph side identically: the source and destination columns with self-loops appended, the
  degree count and its inverse square root, the edge weights, and for each layer "gather the rows by source, scale, sum
  per destination". They differ in the dense stages only, and each dense stage acts on every row by itself, so a kernel
  that computes it on 25 blocks of 2000 consecutive rows leaves the same array as the reference's one whole-array
  operation: a row of a matrix product depends on that row of the left factor alone, and a row's maximum, sum of
  exponentials and logarithm on that row alone. On the extended reals the change of float format before a kernel's product is
  the identity, so no rounding separates the two. No entry has to be finite for any of this: the same operations are
  applied to the same values in the same arrangement, and sums over a row are sums over the same finite index set.

  The pieces: Layers.lean states the three dense stages as functions of whole arrays; ProductRows, ReluProductRows and
  LogSoftmaxRows show each kernel's output array ends at its stage function of the arrays the call found; HostStages reads
  the kernel program's host stretches and RefValue the reference's whole run, both as the reference's stage functions;
  RefLayers identifies the reference's dense operations with the stage functions; ValueRun chains the kernel side from the
  launch memory to the result buffer. The three frames are the generated frames of the two kernel programs and the
  reference's run with the result dropped; the idealization rewrote no operation, so it has nothing to preserve.
-/
import proofs.«175116_j48206712930320_1_alg».proof.Defs
import proofs.«175116_j48206712930320_1_alg».proof.Proof.Gen.Kernel
import proofs.«175116_j48206712930320_1_alg».proof.Proof.Gen.Kernel.Frame
import proofs.«175116_j48206712930320_1_alg».proof.Proof.Gen.KernelIdeal
import proofs.«175116_j48206712930320_1_alg».proof.Proof.Gen.KernelIdeal.Frame
import proofs.«175116_j48206712930320_1_alg».proof.Proof.Gen.ReferenceIdeal
import proofs.«175116_j48206712930320_1_alg».proof.Proof.Gen.Pre_finite_inputs
import proofs.«175116_j48206712930320_1_alg».proof.Proof.RefValue
import proofs.«175116_j48206712930320_1_alg».proof.Proof.ValueRun

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- Both runs end with the result buffer at the reference's last stage function of the arguments' launch contents,
    and the two launch memories agree on the arguments. -/
theorem algebraic : Cert.algebraic_KernelIdeal_ReferenceIdeal := by
  intro m ρ m' ρ' _ hagree
  refine ⟨fun c => Cert.ReferenceIdeal.ReadP.val_main_v66 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.ValueRun.result_eq m ρ c), (h c).2⟩)
      (Cert.KernelIdeal.ValueRun.run_result (F := Ideal) m ρ)
  · refine (θ_run Cert.ReferenceIdeal.defs _ _).mono (fun _ h c => ⟨(h c).1.trans ?_, (h c).2⟩)
      (Cert.ReferenceIdeal.RefValue.run (F := Ideal) m' ρ')
    obtain ⟨e0, e1, e2, e3, e4, e5⟩ := hagree c
    rw [e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
